-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x4096 : Shape := ⟨2, ![1024, 4096]⟩
abbrev S4096 : Shape := ⟨1, ![4096]⟩
abbrev S4096x4096 : Shape := ⟨2, ![4096, 4096]⟩
abbrev S4096x1024 : Shape := ⟨2, ![4096, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S4096 .f32) (main_arg5 : FVec F S4096x1024 .f32) (main_arg6 : FVec F S1024 .f32) (main_arg7 : FVec F S1024 .f32) (main_arg8 : FVec F S1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S1024x4096 .f32) (main_arg2 : FVec F S4096 .f32) (main_arg3 : FVec F S4096x4096 .f32) (main_arg4 : FVec F S4096 .f32) (main_arg5 : FVec F S4096x1024 .f32) (main_arg6 : FVec F S1024 .f32) (main_arg7 : FVec F S1024 .f32) (main_arg8 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S1024x4096 : Shape := ⟨2, ![1024, 4096]⟩
abbrev S4096 : Shape := ⟨1, ![4096]⟩
abbrev S4096x4096 : Shape := ⟨2, ![4096, 4096]⟩
abbrev S4096x1024 : Shape := ⟨2, ![4096, 1024]⟩
abbrev S1024 : Shape := ⟨1, ![1024]⟩
abbrev S16384x1024 : Shape := ⟨2, ![16384, 1024]⟩
abbrev S1x4096 : Shape := ⟨2, ![1, 4096]⟩
abbrev S1x1024 : Shape := ⟨2, ![1, 1024]⟩
abbrev S256x1024 : Shape := ⟨2, ![256, 1024]⟩
abbrev S4096x512 : Shape := ⟨2, ![4096, 512]⟩
abbrev S1x512 : Shape := ⟨2, ![1, 512]⟩
abbrev S512x1024 : Shape := ⟨2, ![512, 1024]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩

abbrev nBuf : Space → Nat
  | .hbm => 20
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S16384x1024, .f32⟩
  | .hbm, ⟨10, _⟩ => ⟨S1024x4096, .bf16⟩
  | .hbm, ⟨11, _⟩ => ⟨S4096x4096, .bf16⟩
  | .hbm, ⟨12, _⟩ => ⟨S4096x1024, .bf16⟩
  | .hbm, ⟨13, _⟩ => ⟨S1x4096, .f32⟩
  | .hbm, ⟨14, _⟩ => ⟨S1x4096, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S16384x1024, .f32⟩
  | .hbm, ⟨19, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x4096, .f32⟩
  | .local _ .vmem, ⟨4, _⟩ => ⟨S4096x512, .bf16⟩
  | .local _ .vmem, ⟨5, _⟩ => ⟨S4096x512, .bf16⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x4096, .bf16⟩
  | .local _ .vmem, ⟨16, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S4x4096x1024_S16384x1024 : S4x4096x1024.ShapeCasts S16384x1024
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  shapeCasts_S16384x1024_S4x4096x1024 : S16384x1024.ShapeCasts S4x4096x1024
  dot_S256x1024_S1024x4096_S256x4096_1_0_0_1_n_n_wf : DotDims.WF S256x1024 S1024x4096 S256x4096 [1] [0] [0] [1] [] []
  dot_S256x4096_S4096x512_S256x512_1_0_0_1_n_n_wf : DotDims.WF S256x4096 S4096x512 S256x512 [1] [0] [0] [1] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x4096.size a
  hwx0_3 : ∀ i : grid0.Coords, EltTy.bits .bf16 = 32 ∨ (Rect.block (s := S4096x4096) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S16384x1024.size a
  hwx0_9 : ∀ i : grid0.Coords, EltTy.bits .f32 = 32 ∨ (Rect.block (s := S16384x1024) S256x1024.size (cc0_transform_9 i) (hinb0_9 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x4096 : Shape := ⟨2, ![1024, 4096]⟩
abbrev S4096 : Shape := ⟨1, ![4096]⟩
abbrev S4096x4096 : Shape := ⟨2, ![4096, 4096]⟩
abbrev S4096x1024 : Shape := ⟨2, ![4096, 1024]⟩
abbrev S1024 : Shape := ⟨1, ![1024]⟩
abbrev S4x4096x4096 : Shape := ⟨3, ![4, 4096, 4096]⟩
abbrev S1x1x4096 : Shape := ⟨3, ![1, 1, 4096]⟩
abbrev S_ : Shape := ⟨0, ![]⟩
abbrev S1x1x1024 : Shape := ⟨3, ![1, 1, 1024]⟩
abbrev S4x4096 : Shape := ⟨2, ![4, 4096]⟩
abbrev S4x4096x1 : Shape := ⟨3, ![4, 4096, 1]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4x4096x4096, .f32⟩
  | .hbm, ⟨10, _⟩ => ⟨S1x1x4096, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S1x1x4096, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S_, .f32⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S4x4096x1024, .f32⟩
  | .hbm, ⟨50, _⟩ => ⟨S1x1x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S1x1x1024, .f32⟩
  | .hbm, ⟨78, _⟩ => ⟨S4x4096x1024, .f32⟩
  | .hbm, ⟨79, _⟩ => ⟨S4x4096x1024, .f32⟩
  | .hbm, ⟨80, _⟩ => ⟨S1x1x1024, .f32⟩
  | .hbm, ⟨81, _⟩ => ⟨S4x4096x1024, .f32⟩
  | .hbm, ⟨82, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  dot_S4x4096x1024_S1024x4096_S4x4096x4096_2_0_01_1_n_n_wf : DotDims.WF S4x4096x1024 S1024x4096 S4x4096x4096 [2] [0] [0, 1] [1] [] []
  dot_S4x4096x4096_S4096x4096_S4x4096x4096_2_0_01_1_n_n_wf : DotDims.WF S4x4096x4096 S4096x4096 S4x4096x4096 [2] [0] [0, 1] [1] [] []
  dot_S4x4096x4096_S4096x1024_S4x4096x1024_2_0_01_1_n_n_wf : DotDims.WF S4x4096x4096 S4096x1024 S4x4096x1024 [2] [0] [0, 1] [1] [] []

variable [Facts₀]

def dot_S4x4096x1024_S1024x4096_S4x4096x4096_2_0_01_1_n_n : DotDims S4x4096x1024 S1024x4096 S4x4096x4096 where
  lhsContracting := [2]
  rhsContracting := [0]
  lhsNonContracting := [0, 1]
  rhsNonContracting := [1]
  lhsBatch := []
  rhsBatch := []
  wf := dot_S4x4096x1024_S1024x4096_S4x4096x4096_2_0_01_1_n_n_wf
def dot_S4x4096x4096_S4096x4096_S4x4096x4096_2_0_01_1_n_n : DotDims S4x4096x4096 S4096x4096 S4x4096x4096 where
  lhsContracting := [2]
  rhsContracting := [0]
  lhsNonContracting := [0, 1]
  rhsNonContracting := [1]
  lhsBatch := []
  rhsBatch := []
  wf := dot_S4x4096x4096_S4096x4096_S4x4096x4096_2_0_01_1_n_n_wf
def dot_S4x4096x4096_S4096x1024_S4x4096x1024_2_0_01_1_n_n : DotDims S4x4096x4096 S4096x1024 S4x4096x1024 where
  lhsContracting := [2]
  rhsContracting := [0]
  lhsNonContracting := [0, 1]
  rhsNonContracting := [1]
  lhsBatch := []
  rhsBatch := []
  wf := dot_S4x4096x4096_S4096x1024_S4x4096x1024_2_0_01_1_n_n_wf

class Facts : Prop extends Facts₀ where

variable [Facts]
-- ==== Proof.Laws.lean ====
/-
  The laws on the extended reals that join the two programs.

  * A product with the reciprocal square root is the quotient by the square root, wherever the radicand is
    positive (the infinite radicand included: both sides are then zero).  A layer norm's radicand is a mean
    of squares plus a positive constant, so it is always positive.
  * A sum over 4096 indices is the sum, block after block, of the sums over eight consecutive blocks of 512:
    stated as a running sum over an initial segment, one block added per step.
-/
import Idealize.ShloMosaic.PureOps.Ideal
import Idealize.ShloMosaic.PureOps.Ideal.Laws

noncomputable section

namespace Cert.MlpNorm

open Idealize.ShloMosaic

/-! ## The float words of the layer norm, as extended reals -/

/-- The word of `1024.0` denotes the real 1024. -/
theorem ofBits_1024 : Ideal.ofBits .f32 0x44800000#32 = ((1024 : ℝ) : EReal) := by
  simp [Ideal.ofBits, Ideal.ieee, -EReal.coe_mul]; norm_num

/-- The word of the layer norm's epsilon denotes a positive real. -/
theorem ofBits_eps_pos : (0 : EReal) < Ideal.ofBits .f32 0x2B8CBCCC#32 := by
  have h : ∃ r : ℝ, 0 < r ∧ Ideal.ofBits .f32 0x2B8CBCCC#32 = (r : EReal) := by
    refine ⟨(2 ^ 23 + 834764 : ℕ) * (2 : ℝ) ^ ((87 : ℤ) - 127 - 23), by positivity, ?_⟩
    simp [Ideal.ofBits, Ideal.ieee, -EReal.coe_mul]
  obtain ⟨r, hr, e⟩ := h
  rw [e]; exact EReal.coe_pos.2 hr

/-! ## Squares and their means are not negative -/

theorem mul_self_nonneg' (x : EReal) : 0 ≤ x * x := by
  rw [EReal.mul_nonneg_iff]
  rcases le_total 0 x with h | h
  · exact Or.inl ⟨h, h⟩
  · exact Or.inr ⟨h, h⟩

/-- A quotient by 1024 of a sum of squares (from zero) is not negative. -/
theorem mean_sq_nonneg {ι : Type} (s : Finset ι) (d : ι → EReal) :
    0 ≤ Ideal.div (∑ k ∈ s, d k * d k) (Ideal.ofBits .f32 0x44800000#32) := by
  rw [ofBits_1024, Ideal.div_coe (by norm_num : (1024 : ℝ) ≠ 0)]
  exact EReal.mul_nonneg (Finset.sum_nonneg fun k _ => mul_self_nonneg' (d k))
    (EReal.coe_nonneg.2 (by norm_num))

/-- So the layer norm's radicand is positive. -/
theorem radicand_pos {ι : Type} (s : Finset ι) (d : ι → EReal) :
    0 < Ideal.div (∑ k ∈ s, d k * d k) (Ideal.ofBits .f32 0x44800000#32) + Ideal.ofBits .f32 0x2B8CBCCC#32 :=
  lt_of_lt_of_le ofBits_eps_pos (le_add_of_nonneg_left (mean_sq_nonneg s d))

/-! ## The reciprocal square root against the quotient by the square root -/

/-- For a positive radicand `v` (possibly infinite), `a · v^(-1/2) = a / √v` on the extended reals. -/
theorem mul_rsqrt_eq_div_sqrt (a : EReal) {v : EReal} (hv : 0 < v) :
    a * Ideal.rsqrt v = Ideal.div a (Ideal.sqrt v) := by
  induction v using EReal.rec with
  | bot => exact absurd hv (not_lt_bot)
  | top =>
    rw [Ideal.rsqrt_top, Ideal.sqrt_top]
    unfold Ideal.div
    rw [if_neg (by exact EReal.top_ne_zero), EReal.inv_top]
  | coe r =>
    have hr : 0 < r := EReal.coe_pos.1 hv
    have hs : 0 < Real.sqrt r := Real.sqrt_pos.2 hr
    rw [Ideal.rsqrt_coe, Ideal.sqrt_coe, if_neg (not_lt.2 hr.le), if_neg hr.ne', if_neg (not_lt.2 hr.le)]
    unfold Ideal.div
    rw [if_neg (by exact EReal.coe_ne_zero.2 hs.ne'), EReal.coe_inv]

/-! ## A sum over 4096 indices, block after block -/

/-- A function on `Fin 4096` extended by zero to the naturals. -/
def ext (g : Fin 4096 → EReal) (p : ℕ) : EReal := if h : p < 4096 then g ⟨p, h⟩ else 0

/-- The running sum over the first `n` blocks of 512. -/
def partialSum (g : Fin 4096 → EReal) (n : ℕ) : EReal := ∑ p ∈ Finset.range (512 * n), ext g p

theorem partialSum_zero (g : Fin 4096 → EReal) : partialSum g 0 = 0 := by
  unfold partialSum; simp

/-- One more block: the running sum grows by that block's sum. -/
theorem partialSum_succ (g : Fin 4096 → EReal) (j : ℕ) (hj : j < 8) :
    partialSum g (j + 1) = partialSum g j + ∑ q : Fin 512, g ⟨512 * j + q.val, by have := q.isLt; omega⟩ := by
  unfold partialSum
  rw [show 512 * (j + 1) = 512 * j + 512 by ring, Finset.sum_range_add]
  refine congrArg (_ + ·) ?_
  rw [Finset.sum_range]
  refine Finset.sum_congr rfl fun q _ => ?_
  unfold ext
  rw [dif_pos (by have := q.isLt; omega)]

/-- After the eighth block the running sum is the whole sum. -/
theorem partialSum_eight (g : Fin 4096 → EReal) : partialSum g 8 = ∑ p : Fin 4096, g p := by
  unfold partialSum
  rw [show 512 * 8 = 4096 by norm_num, Finset.sum_range]
  exact Finset.sum_congr rfl fun p _ => by unfold ext; rw [dif_pos p.isLt]

end Cert.MlpNorm

end
-- ==== Proof.Spec.lean ====
/-
  The specification: what both programs compute for ONE row of the input, as a function of that row and of the
  weights, over the extended reals.

  A row `xr` of 1024 numbers goes through three affine layers — 1024 → 4096 → 4096 → 1024, the first two
  followed by a polynomial activation `u ↦ u · (1/2 + (1/4)·t + c·t³)`, `t = a·u` —, the input row is added back, and
  the sum is layer-normalized over its 1024 entries: centred at its mean, scaled by the reciprocal square root of its
  variance plus a positive constant, then by a per-entry weight, plus a per-entry bias.  The two programs differ in
  one spelling only: one multiplies by the reciprocal square root (`normMul`), the other divides by the square root
  (`normDiv`); the radicand being positive these are the same extended real (`normMul_eq_normDiv`).
  Every float literal stays the word both programs spell; none is evaluated here.
-/
import Idealize.ShloMosaic.PureOps.Ideal
import proofs.«158970_j70214125355101_1_alg».proof.Proof.Laws

noncomputable section

namespace Cert.MlpNorm

open Idealize.ShloMosaic

/-- The activation's inner scale `a` (the word of 1.702). -/
abbrev cA : EReal := Ideal.ofBits .f32 0x3FD9DB23#32
/-- The word of 1/4. -/
abbrev cQ : EReal := Ideal.ofBits .f32 0x3E800000#32
/-- The word of 1/2. -/
abbrev cH : EReal := Ideal.ofBits .f32 0x3F000000#32
/-- The cubic coefficient `c` (the word of -0.0208). -/
abbrev cC : EReal := Ideal.ofBits .f32 0xBCAA64C3#32
/-- The row length as a float (the word of 1024). -/
abbrev cN : EReal := Ideal.ofBits .f32 0x44800000#32
/-- The layer norm's epsilon (the word of 1e-12). -/
abbrev cE : EReal := Ideal.ofBits .f32 0x2B8CBCCC#32

/-- The activation, in the order both programs evaluate it: with `t = u·a`,
    `u · ((1/2 + (1/4)·t) + c·((t·t)·t))`. -/
def act (u : EReal) : EReal := u * ((cH + cQ * (u * cA)) + cC * (((u * cA) * (u * cA)) * (u * cA)))

/-- First layer at column `i`: the activation of the row's product with column `i` of `w1`, plus `b1 i`. -/
def act1 (xr : Fin 1024 → EReal) (w1 : Fin 1024 → Fin 4096 → EReal) (b1 : Fin 4096 → EReal) (i : Fin 4096) : EReal :=
  act ((∑ k : Fin 1024, xr k * w1 k i) + b1 i)

/-- Second layer at column `j`, of the first layer's row `a1`. -/
def act2 (a1 : Fin 4096 → EReal) (w2 : Fin 4096 → Fin 4096 → EReal) (b2 : Fin 4096 → EReal) (j : Fin 4096) : EReal :=
  act ((∑ i : Fin 4096, a1 i * w2 i j) + b2 j)

/-- Third layer plus the residual, at column `n`: `xr n + (a2 · w3[:, n] + b3 n)`. -/
def resid (xr : Fin 1024 → EReal) (a2 : Fin 4096 → EReal) (w3 : Fin 4096 → Fin 1024 → EReal) (b3 : Fin 1024 → EReal)
    (n : Fin 1024) : EReal :=
  xr n + ((∑ j : Fin 4096, a2 j * w3 j n) + b3 n)

/-- The mean of a row of 1024. -/
def mean (o : Fin 1024 → EReal) : EReal := Ideal.div (∑ n : Fin 1024, o n) cN

/-- Its variance: the mean of the squared deviations. -/
def var (o : Fin 1024 → EReal) : EReal := Ideal.div (∑ n : Fin 1024, (o n - mean o) * (o n - mean o)) cN

/-- Layer norm with the reciprocal square root as a factor. -/
def normMul (o lw lb : Fin 1024 → EReal) (n : Fin 1024) : EReal :=
  ((o n - mean o) * Ideal.rsqrt (var o + cE)) * lw n + lb n

/-- Layer norm with the square root as a divisor. -/
def normDiv (o lw lb : Fin 1024 → EReal) (n : Fin 1024) : EReal :=
  (Ideal.div (o n - mean o) (Ideal.sqrt (var o + cE))) * lw n + lb n

/-- The variance plus epsilon is positive, so the two spellings agree at every extended real. -/
theorem normMul_eq_normDiv (o lw lb : Fin 1024 → EReal) (n : Fin 1024) : normMul o lw lb n = normDiv o lw lb n := by
  unfold normMul normDiv
  rw [mul_rsqrt_eq_div_sqrt _ (show 0 < var o + cE from radicand_pos Finset.univ fun n => o n - mean o)]

/-- The whole row function, multiplying by the reciprocal square root. -/
def rowMul (xr : Fin 1024 → EReal) (w1 : Fin 1024 → Fin 4096 → EReal) (b1 : Fin 4096 → EReal)
    (w2 : Fin 4096 → Fin 4096 → EReal) (b2 : Fin 4096 → EReal) (w3 : Fin 4096 → Fin 1024 → EReal) (b3 : Fin 1024 → EReal)
    (lw lb : Fin 1024 → EReal) (n : Fin 1024) : EReal :=
  normMul (resid xr (act2 (act1 xr w1 b1) w2 b2) w3 b3) lw lb n

/-- The whole row function, dividing by the square root. -/
def rowDiv (xr : Fin 1024 → EReal) (w1 : Fin 1024 → Fin 4096 → EReal) (b1 : Fin 4096 → EReal)
    (w2 : Fin 4096 → Fin 4096 → EReal) (b2 : Fin 4096 → EReal) (w3 : Fin 4096 → Fin 1024 → EReal) (b3 : Fin 1024 → EReal)
    (lw lb : Fin 1024 → EReal) (n : Fin 1024) : EReal :=
  normDiv (resid xr (act2 (act1 xr w1 b1) w2 b2) w3 b3) lw lb n

theorem rowMul_eq_rowDiv (xr : Fin 1024 → EReal) (w1 : Fin 1024 → Fin 4096 → EReal) (b1 : Fin 4096 → EReal)
    (w2 : Fin 4096 → Fin 4096 → EReal) (b2 : Fin 4096 → EReal) (w3 : Fin 4096 → Fin 1024 → EReal) (b3 : Fin 1024 → EReal)
    (lw lb : Fin 1024 → EReal) (n : Fin 1024) :
    rowMul xr w1 b1 w2 b2 w3 b3 lw lb n = rowDiv xr w1 b1 w2 b2 w3 b3 lw lb n :=
  normMul_eq_normDiv _ lw lb n

end Cert.MlpNorm

end
-- ==== Proof.RefRow.lean ====
/-
  The reference program, read one row at a time.

  The reference computes, for every row `(a, b)` of its input `x0 : [4, 4096, 1024]`, a three-layer perceptron
  with a polynomial activation, adds the row back and layer-normalizes the sum over its 1024 entries.  This
  module follows the generated per-operation reading of that program from the inputs to the result, stage by
  stage, and shows that the result at `(a, b, n)` is the specification's row function `rowDiv` of row `(a, b)`
  and of the weights, at entry `n`.  Each stage is stated at a general index of its own shape, written with
  explicit coordinates, so that the following stage can use it under its sum.
-/
import proofs.«158970_j70214125355101_1_alg».proof.Proof.Gen.ReferenceIdeal.Read
import proofs.«158970_j70214125355101_1_alg».proof.Proof.Spec
import Idealize.ShloMosaic.Lib.ValueIdx
import Idealize.ShloMosaic.PureOps.Ideal.Laws

noncomputable section

namespace Cert.MlpNorm.Ref

open Cert.ReferenceIdeal Cert.ReferenceIdeal.Read Idealize.ShloMosaic Idealize.ShloMosaic.ValueIdx

variable (x0 : (⟨S4x4096x1024, .f32⟩ : BufTy).Contents (Elt Ideal))
  (x1 : (⟨S1024x4096, .f32⟩ : BufTy).Contents (Elt Ideal)) (x2 : (⟨S4096, .f32⟩ : BufTy).Contents (Elt Ideal))
  (x3 : (⟨S4096x4096, .f32⟩ : BufTy).Contents (Elt Ideal)) (x4 : (⟨S4096, .f32⟩ : BufTy).Contents (Elt Ideal))
  (x5 : (⟨S4096x1024, .f32⟩ : BufTy).Contents (Elt Ideal)) (x6 x7 x8 : (⟨S1024, .f32⟩ : BufTy).Contents (Elt Ideal))

/-! ## The first layer -/

/-- The first affine map at `(a, b, i)`: row `(a, b)` times column `i` of the first weight, plus the bias. -/
theorem affine1_at (a : Fin 4) (b : Fin 4096) (i : Fin 4096) :
    val_main_v3 (F := Ideal) x0 x1 x2 (ix3 a b i)
      = (∑ k : Fin 1024, x0 (ix3 a b k) * x1 (ix2 k i)) + x2 (ix1 i) := by
  have el : ∀ k : Fin 1024, lidx_main_v0 (ix3 a b i) k = ix3 a b k := fun k =>
    funext fun d => by match d with | ⟨0, _⟩ => rfl | ⟨1, _⟩ => rfl | ⟨2, _⟩ => rfl
  have er : ∀ k : Fin 1024, ridx_main_v0 (ix3 a b i) k = ix2 k i := fun k =>
    funext fun d => by match d with | ⟨0, _⟩ => rfl | ⟨1, _⟩ => rfl
  have eb : idx_main_v1 (idx_main_v2 (ix3 a b i)) = ix1 i :=
    funext fun d => by match d with | ⟨0, _⟩ => rfl
  rw [val_main_v3_apply, val_main_v0_apply, val_main_v2_apply, val_main_v1_apply]
  simp only [el, er, eb, Ideal.addf_def]

/-- The activation, at any index: the operations between the affine map and the layer's result are the
    specification's `act` of the affine map's entry. -/
theorem act1_any (i : S4x4096x4096.Idx) :
    val_main_v15 (F := Ideal) x0 x1 x2 i = act (val_main_v3 (F := Ideal) x0 x1 x2 i) := by
  rw [val_main_v15_apply, val_main_v14_apply, val_main_v11_apply, val_main_v13_apply, val_main_v10_apply,
    val_main_cst_1_apply, val_main_v9_apply, val_main_v8_apply, val_main_cst_0_apply, val_main_v12_apply,
    val_main_cst_2_apply, val_main_v7_apply, val_main_v6_apply, val_main_v5_apply, val_main_v4_apply,
    val_main_cst_apply]
  simp only [Ideal.mulf_def, Ideal.addf_def, Ideal.ofBits_def]
  rfl

/-- The first layer at `(a, b, i)`. -/
theorem layer1_at (a : Fin 4) (b : Fin 4096) (i : Fin 4096) :
    val_main_v15 (F := Ideal) x0 x1 x2 (ix3 a b i)
      = act1 (fun k => x0 (ix3 a b k)) (fun k c => x1 (ix2 k c)) (fun c => x2 (ix1 c)) i := by
  rw [act1_any, affine1_at]
  rfl

/-! ## The second layer -/

/-- The second affine map at `(a, b, j)`: the first layer's row `(a, b)` times column `j` of the second
    weight, plus the bias. -/
theorem affine2_at (a : Fin 4) (b : Fin 4096) (j : Fin 4096) :
    val_main_v19 (F := Ideal) x0 x1 x2 x3 x4 (ix3 a b j)
      = (∑ i : Fin 4096, val_main_v15 (F := Ideal) x0 x1 x2 (ix3 a b i) * x3 (ix2 i j)) + x4 (ix1 j) := by
  have el : ∀ k : Fin 4096, lidx_main_v16 (ix3 a b j) k = ix3 a b k := fun k =>
    funext fun d => by match d with | ⟨0, _⟩ => rfl | ⟨1, _⟩ => rfl | ⟨2, _⟩ => rfl
  have er : ∀ k : Fin 4096, ridx_main_v16 (ix3 a b j) k = ix2 k j := fun k =>
    funext fun d => by match d with | ⟨0, _⟩ => rfl | ⟨1, _⟩ => rfl
  have eb : idx_main_v17 (idx_main_v18 (ix3 a b j)) = ix1 j :=
    funext fun d => by match d with | ⟨0, _⟩ => rfl
  rw [val_main_v19_apply, val_main_v16_apply, val_main_v18_apply, val_main_v17_apply]
  simp only [el, er, eb, Ideal.addf_def]

/-- The second activation, at any index. -/
theorem act2_any (i : S4x4096x4096.Idx) :
    val_main_v31 (F := Ideal) x0 x1 x2 x3 x4 i = act (val_main_v19 (F := Ideal) x0 x1 x2 x3 x4 i) := by
  rw [val_main_v31_apply, val_main_v30_apply, val_main_v27_apply, val_main_v29_apply, val_main_v26_apply,
    val_main_cst_5_apply, val_main_v25_apply, val_main_v24_apply, val_main_cst_4_apply, val_main_v28_apply,
    val_main_cst_6_apply, val_main_v23_apply, val_main_v22_apply, val_main_v21_apply, val_main_v20_apply,
    val_main_cst_3_apply]
  simp only [Ideal.mulf_def, Ideal.addf_def, Ideal.ofBits_def]
  rfl

/-- The second layer at `(a, b, j)`, of the first layer's row. -/
theorem layer2_at (a : Fin 4) (b : Fin 4096) (j : Fin 4096) :
    val_main_v31 (F := Ideal) x0 x1 x2 x3 x4 (ix3 a b j)
      = act2 (act1 (fun k => x0 (ix3 a b k)) (fun k c => x1 (ix2 k c)) (fun c => x2 (ix1 c)))
          (fun k c => x3 (ix2 k c)) (fun c => x4 (ix1 c)) j := by
  rw [act2_any, affine2_at]
  simp only [layer1_at]
  rfl

/-! ## The third layer and the residual -/

/-- The row `(a, b)` plus the third affine map of the second layer's row, at entry `n`. -/
theorem resid_at (a : Fin 4) (b : Fin 4096) (n : Fin 1024) :
    val_main_v36 (F := Ideal) x0 x1 x2 x3 x4 x5 x6 (ix3 a b n)
      = resid (fun k => x0 (ix3 a b k))
          (act2 (act1 (fun k => x0 (ix3 a b k)) (fun k c => x1 (ix2 k c)) (fun c => x2 (ix1 c)))
            (fun k c => x3 (ix2 k c)) (fun c => x4 (ix1 c)))
          (fun k c => x5 (ix2 k c)) (fun c => x6 (ix1 c)) n := by
  have el : ∀ k : Fin 4096, lidx_main_v32 (ix3 a b n) k = ix3 a b k := fun k =>
    funext fun d => by match d with | ⟨0, _⟩ => rfl | ⟨1, _⟩ => rfl | ⟨2, _⟩ => rfl
  have er : ∀ k : Fin 4096, ridx_main_v32 (ix3 a b n) k = ix2 k n := fun k =>
    funext fun d => by match d with | ⟨0, _⟩ => rfl | ⟨1, _⟩ => rfl
  have eb : idx_main_v33 (idx_main_v34 (ix3 a b n)) = ix1 n :=
    funext fun d => by match d with | ⟨0, _⟩ => rfl
  rw [val_main_v36_apply, val_main_v35_apply, val_main_v32_apply, val_main_v34_apply, val_main_v33_apply]
  simp only [el, er, eb, Ideal.addf_def, layer2_at]
  rfl

/-! ## The layer norm -/

/-- The row's mean: the sum of the row from zero, divided by the row's length.  It is stored once per row, at
    the one index `c` of an axis of length one. -/
theorem mean_at (a : Fin 4) (b : Fin 4096) (c : Fin 1) :
    val_main_v40 (F := Ideal) x0 x1 x2 x3 x4 x5 x6 (ix3 a b c)
      = mean (resid (fun k => x0 (ix3 a b k))
          (act2 (act1 (fun k => x0 (ix3 a b k)) (fun k c => x1 (ix2 k c)) (fun c => x2 (ix1 c)))
            (fun k c => x3 (ix2 k c)) (fun c => x4 (ix1 c)))
          (fun k c => x5 (ix2 k c)) (fun c => x6 (ix1 c))) := by
  have ei : ∀ k : Fin 1024, idx_main_v37 (idx_main_v38 (ix3 a b c)) k = ix3 a b k := fun k =>
    funext fun d => by match d with | ⟨0, _⟩ => rfl | ⟨1, _⟩ => rfl | ⟨2, _⟩ => rfl
  rw [val_main_v40_apply, val_main_v38_apply, val_main_v37_apply, val_main_v39_apply, val_main_cst_8_apply,
    val_main_cst_7_apply]
  simp only [ei, Ideal.hostDivf_def, Ideal.ofBits_def, Ideal.ofBits_zero_f32, zero_add, resid_at]
  rfl

/-- The deviation from the mean at `(a, b, n)`. -/
theorem dev_at (a : Fin 4) (b : Fin 4096) (n : Fin 1024) :
    val_main_v42 (F := Ideal) x0 x1 x2 x3 x4 x5 x6 (ix3 a b n)
      = resid (fun k => x0 (ix3 a b k))
          (act2 (act1 (fun k => x0 (ix3 a b k)) (fun k c => x1 (ix2 k c)) (fun c => x2 (ix1 c)))
            (fun k c => x3 (ix2 k c)) (fun c => x4 (ix1 c)))
          (fun k c => x5 (ix2 k c)) (fun c => x6 (ix1 c)) n
        - mean (resid (fun k => x0 (ix3 a b k))
          (act2 (act1 (fun k => x0 (ix3 a b k)) (fun k c => x1 (ix2 k c)) (fun c => x2 (ix1 c)))
            (fun k c => x3 (ix2 k c)) (fun c => x4 (ix1 c)))
          (fun k c => x5 (ix2 k c)) (fun c => x6 (ix1 c))) := by
  have e1 : idx_main_v41 (ix3 a b n) = ix3 a b (⟨0, Nat.one_pos⟩ : Fin 1) :=
    funext fun d => by match d with | ⟨0, _⟩ => rfl | ⟨1, _⟩ => rfl | ⟨2, _⟩ => rfl
  rw [val_main_v42_apply, val_main_v41_apply, e1, mean_at, resid_at]
  simp only [Ideal.subf_def]

/-- The row's variance: the sum of the squared deviations from zero, divided by the row's length. -/
theorem var_at (a : Fin 4) (b : Fin 4096) (c : Fin 1) :
    val_main_v47 (F := Ideal) x0 x1 x2 x3 x4 x5 x6 (ix3 a b c)
      = var (resid (fun k => x0 (ix3 a b k))
          (act2 (act1 (fun k => x0 (ix3 a b k)) (fun k c => x1 (ix2 k c)) (fun c => x2 (ix1 c)))
            (fun k c => x3 (ix2 k c)) (fun c => x4 (ix1 c)))
          (fun k c => x5 (ix2 k c)) (fun c => x6 (ix1 c))) := by
  have ei : ∀ k : Fin 1024, idx_main_v44 (idx_main_v45 (ix3 a b c)) k = ix3 a b k := fun k =>
    funext fun d => by match d with | ⟨0, _⟩ => rfl | ⟨1, _⟩ => rfl | ⟨2, _⟩ => rfl
  rw [val_main_v47_apply, val_main_v45_apply, val_main_v44_apply, val_main_v46_apply, val_main_cst_10_apply,
    val_main_cst_9_apply]
  simp only [ei, val_main_v43_apply, dev_at, Ideal.hostDivf_def, Ideal.mulf_def, Ideal.ofBits_def,
    Ideal.ofBits_zero_f32, zero_add]
  rfl

/-- The normalized row at `(a, b, n)`: the deviation divided by the square root of the variance plus epsilon,
    times the weight, plus the bias. -/
theorem norm_at (a : Fin 4) (b : Fin 4096) (n : Fin 1024) :
    val_main_v60 (F := Ideal) x0 x1 x2 x3 x4 x5 x6 x7 x8 (ix3 a b n)
      = normDiv (resid (fun k => x0 (ix3 a b k))
          (act2 (act1 (fun k => x0 (ix3 a b k)) (fun k c => x1 (ix2 k c)) (fun c => x2 (ix1 c)))
            (fun k c => x3 (ix2 k c)) (fun c => x4 (ix1 c)))
          (fun k c => x5 (ix2 k c)) (fun c => x6 (ix1 c))) (fun c => x7 (ix1 c)) (fun c => x8 (ix1 c)) n := by
  have e1 : idx_main_v48 (ix3 a b n) = ix3 a b (⟨0, Nat.one_pos⟩ : Fin 1) :=
    funext fun d => by match d with | ⟨0, _⟩ => rfl | ⟨1, _⟩ => rfl | ⟨2, _⟩ => rfl
  have e2 : idx_main_v53 (ix3 a b n) = ix3 a b (⟨0, Nat.one_pos⟩ : Fin 1) :=
    funext fun d => by match d with | ⟨0, _⟩ => rfl | ⟨1, _⟩ => rfl | ⟨2, _⟩ => rfl
  have ew : idx_main_v55 (idx_main_v56 (ix3 a b n)) = ix1 n :=
    funext fun d => by match d with | ⟨0, _⟩ => rfl
  have eb : idx_main_v58 (idx_main_v59 (ix3 a b n)) = ix1 n :=
    funext fun d => by match d with | ⟨0, _⟩ => rfl
  rw [val_main_v60_apply, val_main_v57_apply, val_main_v59_apply, val_main_v58_apply, val_main_v54_apply,
    val_main_v56_apply, val_main_v55_apply, val_main_v49_apply, val_main_v48_apply, val_main_v53_apply,
    val_main_v52_apply, val_main_v51_apply, val_main_v50_apply, val_main_cst_11_apply, e1, e2, ew, eb,
    mean_at, var_at, resid_at]
  simp only [Ideal.addf_def, Ideal.mulf_def, Ideal.subf_def, Ideal.hostDivf_def, Ideal.hostUnary_sqrt_def,
    Ideal.ofBits_def]
  rfl

/-! ## The whole row -/

/-- The reference's result at `(a, b, n)` is the row function of row `(a, b)` and the weights, at entry `n`. -/
theorem ref_apply (a : Fin 4) (b : Fin 4096) (n : Fin 1024) :
    Cert.ReferenceIdeal.Read.val_main_v60 (F := Ideal) x0 x1 x2 x3 x4 x5 x6 x7 x8 (ValueIdx.ix3 a b n)
      = Cert.MlpNorm.rowDiv (fun k => x0 (ValueIdx.ix3 a b k)) (fun k c => x1 (ValueIdx.ix2 k c))
          (fun c => x2 (ValueIdx.ix1 c)) (fun k c => x3 (ValueIdx.ix2 k c)) (fun c => x4 (ValueIdx.ix1 c))
          (fun k c => x5 (ValueIdx.ix2 k c)) (fun c => x6 (ValueIdx.ix1 c)) (fun c => x7 (ValueIdx.ix1 c))
          (fun c => x8 (ValueIdx.ix1 c)) n :=
  norm_at x0 x1 x2 x3 x4 x5 x6 x7 x8 a b n

end Cert.MlpNorm.Ref

end
-- ==== Proof.Pieces.lean ====
/-
  What each control case of the kernel body leaves in the two buffers it carries from one grid point to the next
  and in the output's staging buffer, as pure functions of what it loaded (at any float instance).

  The body has three cases. At the first step of a row tile (case A) it computes the first layer's activation of
  the whole row tile, stores it in the first carried buffer, zeroes the accumulator in the second, and then — like
  every step — adds to the accumulator this step's block of the third layer's product. At the middle steps (case B)
  only the accumulation happens, over what the step before left. At the last step (case C) the accumulation is
  followed by the residual and the layer norm of the accumulated rows, stored into the output block.
  Each store covers its whole buffer through the zero-offset rectangle, and each load reads a whole buffer, so what
  a buffer ends holding is the last store's value of the loaded contents.
-/
import proofs.«158970_j70214125355101_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.MlpNorm.K

open Cert.KernelIdeal Cert.KernelIdeal.Gen

variable {F : FTy → Type} [FloatOps F]

theorem hz : (![0, 0] : Fin 2 → Nat) = fun _ => 0 := funext fun a => by fin_cases a <;> rfl

/-- Case A leaves, in the first carried buffer, the first layer's activation of the row tile. -/
theorem first_act_A (c : Dev nD) (i : grid0.Coords) (arg2 : Memref sig .tc .vmem S256x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x4096 .bf16) (harg12 : arg12.IsWhole) (arg13 : Memref sig .tc .vmem S256x1024 .f32) (harg13 : arg13.IsWhole) (hc0 : cond0_0 i) (hc1 : ¬cond0_1 i)
    (x0 : Vec F S256x1024 .f32) (x1 : Vec F S1024x4096 .bf16) (x2 : Vec F S1x4096 .f32) (x3 : Vec F S4096x512 .bf16) (x4 : Vec F S1x512 .f32) (x5 : Vec F S512x1024 .bf16) (x6 : Vec F S1x1024 .f32) (x7 : Vec F S1x1024 .f32) (x8 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay2 x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S256x1024) hz, View.ld_unit_zero (S := S1024x4096) hz, View.ld_unit_zero (S := S1x4096) hz, View.ld_unit_zero (S := S4096x512) hz, View.ld_unit_zero (S := S1x512) hz, View.ld_unit_zero (S := S512x1024) hz, View.ld_unit_zero (S := S1x1024) hz, View.ld_unit_zero (S := S256x4096) hz]

/-- Case A leaves, in the accumulator, the first block's product added to the zero block it has just stored. -/
theorem acc_A (c : Dev nD) (i : grid0.Coords) (arg2 : Memref sig .tc .vmem S256x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x4096 .bf16) (harg12 : arg12.IsWhole) (arg13 : Memref sig .tc .vmem S256x1024 .f32) (harg13 : arg13.IsWhole) (hc0 : cond0_0 i) (hc1 : ¬cond0_1 i)
    (x0 : Vec F S256x1024 .f32) (x1 : Vec F S1024x4096 .bf16) (x2 : Vec F S1x4096 .f32) (x3 : Vec F S4096x512 .bf16) (x4 : Vec F S1x512 .f32) (x5 : Vec F S512x1024 .bf16) (x6 : Vec F S1x1024 .f32) (x7 : Vec F S1x1024 .f32) (x8 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay4 (k0_pay2 x0 x1 x2) x3 x4 (k0_pay3 (F := F)) x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S256x1024) hz, View.readCov_unit_zero (S := S256x4096) _ hz, View.readCov_unit_zero (S := S256x1024) _ hz]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S256x1024) hz, View.ld_unit_zero (S := S1024x4096) hz, View.ld_unit_zero (S := S1x4096) hz, View.ld_unit_zero (S := S4096x512) hz, View.ld_unit_zero (S := S1x512) hz, View.ld_unit_zero (S := S512x1024) hz, View.ld_unit_zero (S := S1x1024) hz, View.ld_unit_zero (S := S256x4096) hz]

/-- Case B adds this step's block product to the accumulator the step before left. -/
theorem acc_B (c : Dev nD) (i : grid0.Coords) (arg2 : Memref sig .tc .vmem S256x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x4096 .bf16) (harg12 : arg12.IsWhole) (arg13 : Memref sig .tc .vmem S256x1024 .f32) (harg13 : arg13.IsWhole) (hc0 : ¬cond0_0 i) (hc1 : ¬cond0_1 i)
    (x0 : Vec F S256x1024 .f32) (x1 : Vec F S1024x4096 .bf16) (x2 : Vec F S1x4096 .f32) (x3 : Vec F S4096x512 .bf16) (x4 : Vec F S1x512 .f32) (x5 : Vec F S512x1024 .bf16) (x6 : Vec F S1x1024 .f32) (x7 : Vec F S1x1024 .f32) (x8 : Vec F S1x1024 .f32) (xs0 : Vec F S256x4096 .bf16) (xs1 : Vec F S256x1024 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 xs0 x3 x4 xs1 x5 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S256x1024) hz, View.ld_unit_zero (S := S1024x4096) hz, View.ld_unit_zero (S := S1x4096) hz, View.ld_unit_zero (S := S4096x512) hz, View.ld_unit_zero (S := S1x512) hz, View.ld_unit_zero (S := S512x1024) hz, View.ld_unit_zero (S := S1x1024) hz, View.ld_unit_zero (S := S256x4096) hz]

/-- Case C does the same accumulation. -/
theorem acc_C (c : Dev nD) (i : grid0.Coords) (arg2 : Memref sig .tc .vmem S256x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x4096 .bf16) (harg12 : arg12.IsWhole) (arg13 : Memref sig .tc .vmem S256x1024 .f32) (harg13 : arg13.IsWhole) (hc0 : ¬cond0_0 i) (hc1 : cond0_1 i)
    (x0 : Vec F S256x1024 .f32) (x1 : Vec F S1024x4096 .bf16) (x2 : Vec F S1x4096 .f32) (x3 : Vec F S4096x512 .bf16) (x4 : Vec F S1x512 .f32) (x5 : Vec F S512x1024 .bf16) (x6 : Vec F S1x1024 .f32) (x7 : Vec F S1x1024 .f32) (x8 : Vec F S1x1024 .f32) (xs0 : Vec F S256x4096 .bf16) (xs1 : Vec F S256x1024 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 xs0 x3 x4 xs1 x5 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S256x1024) hz, View.ld_unit_zero (S := S1024x4096) hz, View.ld_unit_zero (S := S1x4096) hz, View.ld_unit_zero (S := S4096x512) hz, View.ld_unit_zero (S := S1x512) hz, View.ld_unit_zero (S := S512x1024) hz, View.ld_unit_zero (S := S1x1024) hz, View.ld_unit_zero (S := S256x4096) hz]

/-- Case C stores into the output block the layer norm of the input block plus the completed accumulator plus the bias. -/
theorem out_C (c : Dev nD) (i : grid0.Coords) (arg2 : Memref sig .tc .vmem S256x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x4096 .bf16) (harg12 : arg12.IsWhole) (arg13 : Memref sig .tc .vmem S256x1024 .f32) (harg13 : arg13.IsWhole) (hc0 : ¬cond0_0 i) (hc1 : cond0_1 i)
    (x0 : Vec F S256x1024 .f32) (x1 : Vec F S1024x4096 .bf16) (x2 : Vec F S1x4096 .f32) (x3 : Vec F S4096x512 .bf16) (x4 : Vec F S1x512 .f32) (x5 : Vec F S512x1024 .bf16) (x6 : Vec F S1x1024 .f32) (x7 : Vec F S1x1024 .f32) (x8 : Vec F S1x1024 .f32) (xs0 : Vec F S256x4096 .bf16) (xs1 : Vec F S256x1024 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay1 (k0_pay4 xs0 x3 x4 xs1 x5) x6 x0 x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz, View.readCov_unit_zero (S := S256x1024) _ hz]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S256x1024) hz, View.ld_unit_zero (S := S1024x4096) hz, View.ld_unit_zero (S := S1x4096) hz, View.ld_unit_zero (S := S4096x512) hz, View.ld_unit_zero (S := S1x512) hz, View.ld_unit_zero (S := S512x1024) hz, View.ld_unit_zero (S := S1x1024) hz, View.ld_unit_zero (S := S256x4096) hz]

end Cert.MlpNorm.K

end
-- ==== Proof.Cases.lean ====
/-
  What the carried buffers and the output block hold after a grid point, case by case, as the body's stored values
  of that point's input blocks and of what the point before left (at any float instance).

  A point is in case A when its step within the row tile is the first, in case C when it is the last, in case B
  otherwise.  The first layer's activation is computed in case A and then only carried; the accumulator is restarted
  in case A and stepped in every case; the output block is written in case C only.
-/
import proofs.«158970_j70214125355101_1_alg».proof.Proof.Pieces

set_option maxRecDepth 16384

noncomputable section

open Idealize.ShloMosaic Idealize.ShloMosaic.TcCoe Idealize.SL.Sem
open Idealize.ShloMosaic.Pipeline (Dat)

namespace Cert.MlpNorm.K

open Cert.KernelIdeal Cert.KernelIdeal.Gen

variable {F : FTy → Type} [FloatOps F]
variable (m : (ℓ : Loc nD τ sig) → Buf (Elt F) ℓ) (c : Dev nD)

/-- The first carried buffer (the first layer's activation) after point `n`. -/
abbrev actAt (n : ℕ) (h : n < cfg0.N) : Vec F S256x4096 .bf16 := (outsAt0 m c n h).2.1
/-- The second carried buffer (the accumulator) after point `n`. -/
abbrev accAt (n : ℕ) (h : n < cfg0.N) : Vec F S256x1024 .f32 := (outsAt0 m c n h).2.2
/-- What the point before `t` left in the two carried buffers. -/
abbrev prevAct (t : Fin cfg0.N) : Vec F S256x4096 .bf16 := actAt m c (t.val - 1) (Nat.lt_of_le_of_lt (Nat.sub_le _ _) t.isLt)
abbrev prevAcc (t : Fin cfg0.N) : Vec F S256x1024 .f32 := accAt m c (t.val - 1) (Nat.lt_of_le_of_lt (Nat.sub_le _ _) t.isLt)

set_option maxHeartbeats 2000000 in
/-- First step of a row tile: the activation of this tile's rows, and the first block's product over the zero block. -/
theorem outs_A (t : Fin cfg0.N) (h0 : t.val % 8 = 0) (h1 : ¬t.val % 8 = 7) :
    actAt m c t.val t.isLt = k0_pay2 (iblk m c 0 t) (iblk m c 1 t) (iblk m c 2 t)
    ∧ accAt m c t.val t.isLt
        = k0_pay4 (k0_pay2 (iblk m c 0 t) (iblk m c 1 t) (iblk m c 2 t)) (iblk m c 3 t) (iblk m c 4 t) (k0_pay3 (F := F)) (iblk m c 5 t) := by
  unfold actAt accAt
  rw [outsAt0_A m c t h0 h1]
  refine ⟨?_, ?_⟩
  · dsimp only
    exact first_act_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
  · dsimp only
    exact acc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

set_option maxHeartbeats 2000000 in
/-- A middle step: the activation is carried, the accumulator stepped. -/
theorem outs_B (t : Fin cfg0.N) (h0 : ¬t.val % 8 = 0) (h1 : ¬t.val % 8 = 7) :
    actAt m c t.val t.isLt = prevAct m c t
    ∧ accAt m c t.val t.isLt = k0_pay4 (prevAct m c t) (iblk m c 3 t) (iblk m c 4 t) (prevAcc m c t) (iblk m c 5 t) := by
  unfold actAt accAt
  rw [outsAt0_B m c t h0 h1]
  refine ⟨?_, ?_⟩
  · dsimp only
    rfl
  · dsimp only
    exact acc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (prevAct m c t) (prevAcc m c t)

set_option maxHeartbeats 2000000 in
/-- The last step: the same, and the output block is the layer norm over the completed accumulator. -/
theorem outs_C (t : Fin cfg0.N) (h0 : ¬t.val % 8 = 0) (h1 : t.val % 8 = 7) :
    (outsAt0 m c t.val t.isLt).1
        = k0_pay1 (k0_pay4 (prevAct m c t) (iblk m c 3 t) (iblk m c 4 t) (prevAcc m c t) (iblk m c 5 t)) (iblk m c 6 t) (iblk m c 0 t) (iblk m c 7 t) (iblk m c 8 t)
    ∧ actAt m c t.val t.isLt = prevAct m c t
    ∧ accAt m c t.val t.isLt = k0_pay4 (prevAct m c t) (iblk m c 3 t) (iblk m c 4 t) (prevAcc m c t) (iblk m c 5 t) := by
  unfold actAt accAt
  rw [outsAt0_C m c t h0 h1]
  refine ⟨?_, ?_, ?_⟩
  · dsimp only
    exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (prevAct m c t) (prevAcc m c t)
  · dsimp only
    rfl
  · dsimp only
    exact acc_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (prevAct m c t) (prevAcc m c t)

end Cert.MlpNorm.K

end
-- ==== Proof.Payloads.lean ====
/-
  The kernel body's four stored values, read at an index, over the extended reals.

  Each is the specification's row function of the loaded blocks' rows: the first layer's activation of a row
  (`first_apply`), the zero block (`zero_apply`), one step of the accumulation — the accumulator plus, over this
  step's 512 columns of the second layer, the activation times the third layer's block (`step_apply`) —, and the
  layer norm of the input row plus the accumulated row plus the bias (`norm_apply`).  A change of float format is
  the identity here, a product into a zero accumulator is the plain sum, and a lane reduction from zero is the
  plain sum.
-/
import proofs.«158970_j70214125355101_1_alg».proof.Proof.Gen.KernelIdeal.Skeleton
import proofs.«158970_j70214125355101_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.MlpNorm.K

open Cert.KernelIdeal Cert.KernelIdeal.Gen

/-! ## Small layout lemmas: a column's unit axis -/

/-- An `[a]` array cast to `[a, 1]` reads, at `(i, u)`, the operand at `i`. -/
theorem cast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector, at an index. -/
theorem rsqrt_vec_apply {s : Shape} {φ : FTy} (v : FVec Ideal s φ) (i : s.Idx) : rsqrt v i = Ideal.rsqrt (v i) := rfl

/-- A lane sum from zero over a row of 1024, read at row `r`: the plain sum of the row. -/
theorem rowsum_apply (src : FVec Ideal S256x1024 .f32) (hφ : FTy.f32 = FTy.f32 ∨ FTy.f32 = FTy.bf16)
    (hacc : (0x00000000#32 : BitVec FTy.f32.bits) = 0x00000000#32) (r : Fin 256) :
    multiReduction (F := Ideal) .add [1] S256 src 0x00000000#32 reduces_S256x1024_S256 hφ hacc (ix1 r)
      = ∑ k : Fin 1024, src (ix2 r k) := by
  refine (Ideal.multiReduction_add_single src 0x00000000#32 reduces_S256x1024_S256 hφ hacc (ix1 r)).trans ?_
  refine Finset.sum_congr rfl fun k _ => congrArg src ?_
  funext d
  match d with
  | ⟨0, _⟩ => rfl
  | ⟨1, _⟩ => rfl

/-! ## The three products -/

/-- The matrix unit's product into a zero accumulator, read at `(a, b)`: the sum over the contracted axis. -/
theorem mm_first (l : FVec Ideal S256x1024 .bf16) (r : FVec Ideal S1024x4096 .bf16) (a : Fin 256) (b : Fin 4096) :
    matmul dot_S256x1024_S1024x4096_S256x4096_1_0_0_1_n_n none l r (constant (F := Ideal) S256x4096 .f32 0x00000000#32) (ix2 a b)
      = ∑ k : Fin 1024, l (ix2 a k) * r (ix2 k b) := by
  refine (Ideal.matmul_constant_zero_apply dot_S256x1024_S1024x4096_S256x4096_1_0_0_1_n_n none l r (ix2 a b)).trans ?_
  rw [← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have l0 : ∀ q, (dot_S256x1024_S1024x4096_S256x4096_1_0_0_1_n_n.lhsIdx (ix2 a b) q 0).val = a.val := fun q => by
    unfold DotDims.lhsIdx
    rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
    rfl
  have r1 : ∀ q, (dot_S256x1024_S1024x4096_S256x4096_1_0_0_1_n_n.rhsIdx (ix2 a b) q 1).val = b.val := fun q => by
    unfold DotDims.rhsIdx
    rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
    rfl
  have el : dot_S256x1024_S1024x4096_S256x4096_1_0_0_1_n_n.lhsIdx (ix2 a b) ((ValueIdx.contrEquiv1 dot_S256x1024_S1024x4096_S256x4096_1_0_0_1_n_n 1024 rfl rfl).symm k) = ix2 a k := funext fun d => Fin.ext (by
    match d with
    | ⟨0, _⟩ => exact l0 _
    | ⟨1, _⟩ => exact (dot_S256x1024_S1024x4096_S256x4096_1_0_0_1_n_n.lhsIdx_val_of_single rfl _ _).trans hk)
  have er : dot_S256x1024_S1024x4096_S256x4096_1_0_0_1_n_n.rhsIdx (ix2 a b) ((ValueIdx.contrEquiv1 dot_S256x1024_S1024x4096_S256x4096_1_0_0_1_n_n 1024 rfl rfl).symm k) = ix2 k b := funext fun d => Fin.ext (by
    match d with
    | ⟨0, _⟩ => exact (dot_S256x1024_S1024x4096_S256x4096_1_0_0_1_n_n.rhsIdx_val_of_single rfl _ _).trans hk
    | ⟨1, _⟩ => exact r1 _)
  rw [el, er]

/-- The matrix unit's product into a zero accumulator, read at `(a, b)`: the sum over the contracted axis. -/
theorem mm_second (l : FVec Ideal S256x4096 .bf16) (r : FVec Ideal S4096x512 .bf16) (a : Fin 256) (b : Fin 512) :
    matmul dot_S256x4096_S4096x512_S256x512_1_0_0_1_n_n none l r (constant (F := Ideal) S256x512 .f32 0x00000000#32) (ix2 a b)
      = ∑ k : Fin 4096, l (ix2 a k) * r (ix2 k b) := by
  refine (Ideal.matmul_constant_zero_apply dot_S256x4096_S4096x512_S256x512_1_0_0_1_n_n none l r (ix2 a b)).trans ?_
  rw [← Equiv.sum_comp (ValueIdx.contrEquiv1 dot_S256x4096_S4096x512_S256x512_1_0_0_1_n_n 4096 rfl rfl).symm]
  refine Finset.sum_congr rfl fun k _ => ?_
  have hk := ValueIdx.contrEquiv1_symm_val dot_S256x4096_S4096x512_S256x512_1_0_0_1_n_n 4096 rfl rfl k
  have l0 : ∀ q, (dot_S256x4096_S4096x512_S256x512_1_0_0_1_n_n.lhsIdx (ix2 a b) q 0).val = a.val := fun q => by
    unfold DotDims.lhsIdx
    rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
    rfl
  have r1 : ∀ q, (dot_S256x4096_S4096x512_S256x512_1_0_0_1_n_n.rhsIdx (ix2 a b) q 1).val = b.val := fun q => by
    unfold DotDims.rhsIdx
    rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
    rfl
  have el : dot_S256x4096_S4096x512_S256x512_1_0_0_1_n_n.lhsIdx (ix2 a b) ((ValueIdx.contrEquiv1 dot_S256x4096_S4096x512_S256x512_1_0_0_1_n_n 4096 rfl rfl).symm k) = ix2 a k := funext fun d => Fin.ext (by
    match d with
    | ⟨0, _⟩ => exact l0 _
    | ⟨1, _⟩ => exact (dot_S256x4096_S4096x512_S256x512_1_0_0_1_n_n.lhsIdx_val_of_single rfl _ _).trans hk)
  have er : dot_S256x4096_S4096x512_S256x512_1_0_0_1_n_n.rhsIdx (ix2 a b) ((ValueIdx.contrEquiv1 dot_S256x4096_S4096x512_S256x512_1_0_0_1_n_n 4096 rfl rfl).symm k) = ix2 k b := funext fun d => Fin.ext (by
    match d with
    | ⟨0, _⟩ => exact (dot_S256x4096_S4096x512_S256x512_1_0_0_1_n_n.rhsIdx_val_of_single rfl _ _).trans hk
    | ⟨1, _⟩ => exact r1 _)
  rw [el, er]

/-- The matrix unit's product into a zero accumulator, read at `(a, b)`: the sum over the contracted axis. -/
theorem mm_third (l : FVec Ideal S256x512 .bf16) (r : FVec Ideal S512x1024 .bf16) (a : Fin 256) (b : Fin 1024) :
    matmul dot_S256x512_S512x1024_S256x1024_1_0_0_1_n_n none l r (constant (F := Ideal) S256x1024 .f32 0x00000000#32) (ix2 a b)
      = ∑ k : Fin 512, l (ix2 a k) * r (ix2 k b) := by
  refine (Ideal.matmul_constant_zero_apply dot_S256x512_S512x1024_S256x1024_1_0_0_1_n_n none l r (ix2 a b)).trans ?_
  rw [← Equiv.sum_comp (ValueIdx.contrEquiv1 dot_S256x512_S512x1024_S256x1024_1_0_0_1_n_n 512 rfl rfl).symm]
  refine Finset.sum_congr rfl fun k _ => ?_
  have hk := ValueIdx.contrEquiv1_symm_val dot_S256x512_S512x1024_S256x1024_1_0_0_1_n_n 512 rfl rfl k
  have l0 : ∀ q, (dot_S256x512_S512x1024_S256x1024_1_0_0_1_n_n.lhsIdx (ix2 a b) q 0).val = a.val := fun q => by
    unfold DotDims.lhsIdx
    rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
    rfl
  have r1 : ∀ q, (dot_S256x512_S512x1024_S256x1024_1_0_0_1_n_n.rhsIdx (ix2 a b) q 1).val = b.val := fun q => by
    unfold DotDims.rhsIdx
    rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
    rfl
  have el : dot_S256x512_S512x1024_S256x1024_1_0_0_1_n_n.lhsIdx (ix2 a b) ((ValueIdx.contrEquiv1 dot_S256x512_S512x1024_S256x1024_1_0_0_1_n_n 512 rfl rfl).symm k) = ix2 a k := funext fun d => Fin.ext (by
    match d with
    | ⟨0, _⟩ => exact l0 _
    | ⟨1, _⟩ => exact (dot_S256x512_S512x1024_S256x1024_1_0_0_1_n_n.lhsIdx_val_of_single rfl _ _).trans hk)
  have er : dot_S256x512_S512x1024_S256x1024_1_0_0_1_n_n.rhsIdx (ix2 a b) ((ValueIdx.contrEquiv1 dot_S256x512_S512x1024_S256x1024_1_0_0_1_n_n 512 rfl rfl).symm k) = ix2 k b := funext fun d => Fin.ext (by
    match d with
    | ⟨0, _⟩ => exact (dot_S256x512_S512x1024_S256x1024_1_0_0_1_n_n.rhsIdx_val_of_single rfl _ _).trans hk
    | ⟨1, _⟩ => exact r1 _)
  rw [el, er]

/-! ## The four stored values -/

/-- The first layer's activation of row `r` of the input block, at column `i`. -/
theorem first_apply (x0 : Vec Ideal S256x1024 .f32) (x1 : Vec Ideal S1024x4096 .bf16) (x2 : Vec Ideal S1x4096 .f32)
    (r : Fin 256) (i : Fin 4096) :
    k0_pay2 (F := Ideal) x0 x1 x2 (ix2 r i)
      = act1 (fun k => x0 (ix2 r k)) (fun k c => x1 (ix2 k c)) (fun c => x2 (ix2 (0 : Fin 1) c)) i := by
  have hm := mm_first (truncf .bf16 x0 bitsLt_bf16_f32) x1 r i
  have hb := broadcastTo_1b_ab_apply x2 broadcasts_S1x4096_S256x4096 r i
  unfold k0_pay2
  simp only [shapeCast_self, truncf_apply, mulf_apply, addf_apply, broadcast_apply, Ideal.ofBits_def, hm, hb]
  rfl

/-- The block the accumulator is restarted from is zero. -/
theorem zero_apply (r : Fin 256) (q : Fin 1024) : k0_pay3 (F := Ideal) (ix2 r q) = 0 := by
  unfold k0_pay3
  simp only [shapeCast_self, broadcast_apply, Ideal.ofBits_def, Ideal.ofBits_zero_f32]

/-- One step of the accumulation at `(r, q)`: the accumulator plus, over this step's 512 columns `p` of the second layer,
    the activation of (the first layer's row times column `p`, plus the bias) times the third layer's block at `(p, q)`. -/
theorem step_apply (v3 : Vec Ideal S256x4096 .bf16) (v4 : Vec Ideal S4096x512 .bf16) (v7 : Vec Ideal S1x512 .f32)
    (v24 : Vec Ideal S256x1024 .f32) (v25 : Vec Ideal S512x1024 .bf16) (r : Fin 256) (q : Fin 1024) :
    k0_pay4 (F := Ideal) v3 v4 v7 v24 v25 (ix2 r q)
      = v24 (ix2 r q) + ∑ p : Fin 512,
          act ((∑ i : Fin 4096, v3 (ix2 r i) * v4 (ix2 i p)) + v7 (ix2 (0 : Fin 1) p)) * v25 (ix2 p q) := by
  unfold k0_pay4
  simp only [shapeCast_self, addf_apply, mm_third, truncf_apply, mulf_apply, broadcast_apply, Ideal.ofBits_def, mm_second,
    broadcastTo_1b_ab_apply]
  rfl

/-- The layer norm at `(r, n)` of the input row plus the accumulated row plus the bias. -/
theorem norm_apply (v35 : Vec Ideal S256x1024 .f32) (v36 : Vec Ideal S1x1024 .f32) (v40 : Vec Ideal S256x1024 .f32)
    (v61 v65 : Vec Ideal S1x1024 .f32) (r : Fin 256) (n : Fin 1024) :
    k0_pay1 (F := Ideal) v35 v36 v40 v61 v65 (ix2 r n)
      = normMul (fun k => v40 (ix2 r k) + (v35 (ix2 r k) + v36 (ix2 (0 : Fin 1) k)))
          (fun k => v61 (ix2 (0 : Fin 1) k)) (fun k => v65 (ix2 (0 : Fin 1) k)) n := by
  unfold k0_pay1
  simp only [shapeCast_self, addf_apply, mulf_apply, subf_apply, divf_apply, broadcast_apply, bcast_col_apply, cast_col_apply,
    rowsum_apply _ k0_pay1._proof_2 k0_pay1._proof_3 r, rsqrt_vec_apply, broadcastTo_1b_ab_apply, Ideal.ofBits_def]
  rfl

end Cert.MlpNorm.K

end
-- ==== Proof.Blocks.lean ====
/-
  What each window's block at a grid point is, as entries of the arrays the region finds, and what those arrays are
  in terms of the program's arguments (over the extended reals).

  The grid has 64 row tiles of 256 rows times 8 steps; point `t` is row tile `t / 8`, step `t % 8`.  The input block is
  rows `256·(t/8) …` of the flattened input; the second layer's block is columns `512·(t%8) …` of its weight and bias;
  the third layer's block is rows `512·(t%8) …` of its weight; the other operands are whole.  Before the region the
  host flattens the input to 16384 rows (row `4096·a + b` is row `(a, b)`), changes the weights' float format (the
  identity here) and gives each bias and norm parameter a leading unit axis.
-/
import proofs.«158970_j70214125355101_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.MlpNorm.K

open Cert.KernelIdeal Cert.KernelIdeal.Gen

variable (m : (ℓ : Loc nD τ sig) → Buf (Elt Ideal) ℓ) (c : Dev nD)

/-! ## The index maps over the grid -/

theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem idx4 : ∀ t : Fin cfg0.N, win0_4.index t (0 : Fin 2) = 0 ∧ win0_4.index t (1 : Fin 2) = t.val % 8 :=
  (by decide +kernel : ∀ t : Fin grid0.N, win0_4.index t (0 : Fin 2) = 0 ∧ win0_4.index t (1 : Fin 2) = t.val % 8)
theorem idx5 : ∀ t : Fin cfg0.N, win0_5.index t (0 : Fin 2) = t.val % 8 ∧ win0_5.index t (1 : Fin 2) = 0 :=
  (by decide +kernel : ∀ t : Fin grid0.N, win0_5.index t (0 : Fin 2) = t.val % 8 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = t.val / 8 ∧ win0_9.index t (1 : Fin 2) = 0 :=
  (by decide +kernel : ∀ t : Fin grid0.N, win0_9.index t (0 : Fin 2) = t.val / 8 ∧ win0_9.index t (1 : Fin 2) = 0)

/-! ## The blocks -/

/-- The input block: rows `256·(t/8) + y0` of the flattened input. -/
theorem blk_x (t : Fin cfg0.N) (y0 : Fin 256) (y1 : Fin 1024) (R : Fin 16384) (hR : R.val = 256 * (t.val / 8) + y0.val) :
    (iblk m c 0 t : Vec Ideal S256x1024 .f32) (ix2 y0 y1) = V m c main_v0 (ix2 R y1) := by
  unfold iblk
  rw [View.read_apply]
  show V m c main_v0 (((cfg0.win 0).blk t).view.emb (ix2 y0 y1)) = V m c main_v0 (ix2 R y1)
  refine congrArg (V m c main_v0) (funext fun a => Fin.ext ?_)
  match a with
  | ⟨0, _⟩ =>
    show win0_0.index t 0 * 256 + 1 * y0.val = R.val
    rw [(idx0 t).1, hR]; omega
  | ⟨1, _⟩ =>
    show win0_0.index t 1 * 1024 + 1 * y1.val = y1.val
    rw [(idx0 t).2]; omega

/-- The first weight, whole. -/
theorem blk_w1 (t : Fin cfg0.N) (y0 : Fin 1024) (y1 : Fin 4096) :
    (iblk m c 1 t : Vec Ideal S1024x4096 .bf16) (ix2 y0 y1) = V m c main_v1 (ix2 y0 y1) := by
  unfold iblk
  rw [View.read_apply]
  show V m c main_v1 (((cfg0.win 1).blk t).view.emb (ix2 y0 y1)) = V m c main_v1 (ix2 y0 y1)
  refine congrArg (V m c main_v1) (funext fun a => Fin.ext ?_)
  match a with
  | ⟨0, _⟩ =>
    show win0_1.index t 0 * 1024 + 1 * y0.val = y0.val
    rw [(idx1 t).1]; omega
  | ⟨1, _⟩ =>
    show win0_1.index t 1 * 4096 + 1 * y1.val = y1.val
    rw [(idx1 t).2]; omega

/-- The first bias, whole. -/
theorem blk_b1 (t : Fin cfg0.N) (y0 : Fin 1) (y1 : Fin 4096) :
    (iblk m c 2 t : Vec Ideal S1x4096 .f32) (ix2 y0 y1) = V m c main_v4 (ix2 y0 y1) := by
  unfold iblk
  rw [View.read_apply]
  show V m c main_v4 (((cfg0.win 2).blk t).view.emb (ix2 y0 y1)) = V m c main_v4 (ix2 y0 y1)
  refine congrArg (V m c main_v4) (funext fun a => Fin.ext ?_)
  match a with
  | ⟨0, _⟩ =>
    show win0_2.index t 0 * 1 + 1 * y0.val = y0.val
    rw [(idx2 t).1]; omega
  | ⟨1, _⟩ =>
    show win0_2.index t 1 * 4096 + 1 * y1.val = y1.val
    rw [(idx2 t).2]; omega

/-- The second weight's block: columns `512·(t%8) + y1`. -/
theorem blk_w2 (t : Fin cfg0.N) (y0 : Fin 4096) (y1 : Fin 512) (P : Fin 4096) (hP : P.val = 512 * (t.val % 8) + y1.val) :
    (iblk m c 3 t : Vec Ideal S4096x512 .bf16) (ix2 y0 y1) = V m c main_v2 (ix2 y0 P) := by
  unfold iblk
  rw [View.read_apply]
  show V m c main_v2 (((cfg0.win 3).blk t).view.emb (ix2 y0 y1)) = V m c main_v2 (ix2 y0 P)
  refine congrArg (V m c main_v2) (funext fun a => Fin.ext ?_)
  match a with
  | ⟨0, _⟩ =>
    show win0_3.index t 0 * 4096 + 1 * y0.val = y0.val
    rw [(idx3 t).1]; omega
  | ⟨1, _⟩ =>
    show win0_3.index t 1 * 512 + 1 * y1.val = P.val
    rw [(idx3 t).2, hP]; omega

/-- The second bias's block. -/
theorem blk_b2 (t : Fin cfg0.N) (y0 : Fin 1) (y1 : Fin 512) (P : Fin 4096) (hP : P.val = 512 * (t.val % 8) + y1.val) :
    (iblk m c 4 t : Vec Ideal S1x512 .f32) (ix2 y0 y1) = V m c main_v5 (ix2 y0 P) := by
  unfold iblk
  rw [View.read_apply]
  show V m c main_v5 (((cfg0.win 4).blk t).view.emb (ix2 y0 y1)) = V m c main_v5 (ix2 y0 P)
  refine congrArg (V m c main_v5) (funext fun a => Fin.ext ?_)
  match a with
  | ⟨0, _⟩ =>
    show win0_4.index t 0 * 1 + 1 * y0.val = y0.val
    rw [(idx4 t).1]; omega
  | ⟨1, _⟩ =>
    show win0_4.index t 1 * 512 + 1 * y1.val = P.val
    rw [(idx4 t).2, hP]; omega

/-- The third weight's block: rows `512·(t%8) + y0`. -/
theorem blk_w3 (t : Fin cfg0.N) (y0 : Fin 512) (y1 : Fin 1024) (P : Fin 4096) (hP : P.val = 512 * (t.val % 8) + y0.val) :
    (iblk m c 5 t : Vec Ideal S512x1024 .bf16) (ix2 y0 y1) = V m c main_v3 (ix2 P y1) := by
  unfold iblk
  rw [View.read_apply]
  show V m c main_v3 (((cfg0.win 5).blk t).view.emb (ix2 y0 y1)) = V m c main_v3 (ix2 P y1)
  refine congrArg (V m c main_v3) (funext fun a => Fin.ext ?_)
  match a with
  | ⟨0, _⟩ =>
    show win0_5.index t 0 * 512 + 1 * y0.val = P.val
    rw [(idx5 t).1, hP]; omega
  | ⟨1, _⟩ =>
    show win0_5.index t 1 * 1024 + 1 * y1.val = y1.val
    rw [(idx5 t).2]; omega

/-- The third bias, whole. -/
theorem blk_b3 (t : Fin cfg0.N) (y0 : Fin 1) (y1 : Fin 1024) :
    (iblk m c 6 t : Vec Ideal S1x1024 .f32) (ix2 y0 y1) = V m c main_v6 (ix2 y0 y1) := by
  unfold iblk
  rw [View.read_apply]
  show V m c main_v6 (((cfg0.win 6).blk t).view.emb (ix2 y0 y1)) = V m c main_v6 (ix2 y0 y1)
  refine congrArg (V m c main_v6) (funext fun a => Fin.ext ?_)
  match a with
  | ⟨0, _⟩ =>
    show win0_6.index t 0 * 1 + 1 * y0.val = y0.val
    rw [(idx6 t).1]; omega
  | ⟨1, _⟩ =>
    show win0_6.index t 1 * 1024 + 1 * y1.val = y1.val
    rw [(idx6 t).2]; omega

/-- The norm's weight, whole. -/
theorem blk_lw (t : Fin cfg0.N) (y0 : Fin 1) (y1 : Fin 1024) :
    (iblk m c 7 t : Vec Ideal S1x1024 .f32) (ix2 y0 y1) = V m c main_v7 (ix2 y0 y1) := by
  unfold iblk
  rw [View.read_apply]
  show V m c main_v7 (((cfg0.win 7).blk t).view.emb (ix2 y0 y1)) = V m c main_v7 (ix2 y0 y1)
  refine congrArg (V m c main_v7) (funext fun a => Fin.ext ?_)
  match a with
  | ⟨0, _⟩ =>
    show win0_7.index t 0 * 1 + 1 * y0.val = y0.val
    rw [(idx7 t).1]; omega
  | ⟨1, _⟩ =>
    show win0_7.index t 1 * 1024 + 1 * y1.val = y1.val
    rw [(idx7 t).2]; omega

/-- The norm's bias, whole. -/
theorem blk_lb (t : Fin cfg0.N) (y0 : Fin 1) (y1 : Fin 1024) :
    (iblk m c 8 t : Vec Ideal S1x1024 .f32) (ix2 y0 y1) = V m c main_v8 (ix2 y0 y1) := by
  unfold iblk
  rw [View.read_apply]
  show V m c main_v8 (((cfg0.win 8).blk t).view.emb (ix2 y0 y1)) = V m c main_v8 (ix2 y0 y1)
  refine congrArg (V m c main_v8) (funext fun a => Fin.ext ?_)
  match a with
  | ⟨0, _⟩ =>
    show win0_8.index t 0 * 1 + 1 * y0.val = y0.val
    rw [(idx8 t).1]; omega
  | ⟨1, _⟩ =>
    show win0_8.index t 1 * 1024 + 1 * y1.val = y1.val
    rw [(idx8 t).2]; omega

/-! ## The arrays the region finds, from the arguments -/

/-- The flattened input at row `4096·a + b` is the input's row `(a, b)`. -/
theorem V_x (a : Fin 4) (b : Fin 4096) (k : Fin 1024) (R : Fin 16384) (hR : R.val = 4096 * a.val + b.val) :
    V m c main_v0 (ix2 R k) = m ((c : Thread nD τ).loc main_arg0) (ix3 a b k) := by
  have e : (V m c main_v0 : S16384x1024.Idx → EReal)
      = shapeCast S16384x1024 (m ((c : Thread nD τ).loc main_arg0)) shapeCasts_S4x4096x1024_S16384x1024 := by
    show StableHlo.after hostOps0 (fun b => m (c, b)) (Proc.devRef .tc main_v0) = _
    after_results
    rfl
  rw [e]
  refine shapeCast_apply _ _ _ _ ?_
  show (S4x4096x1024.rowMajor (ix3 a b k)).val = (S16384x1024.rowMajor (ix2 R k)).val
  rw [Shape.rowMajor_val_three, Shape.rowMajor_val_two]
  show (a.val * 4096 + b.val) * 1024 + k.val = R.val * 1024 + k.val
  rw [hR]; ring

/-- The weights with their float format changed are the weights. -/
theorem V_w1 (k : Fin 1024) (i : Fin 4096) : V m c main_v1 (ix2 k i) = m ((c : Thread nD τ).loc main_arg1) (ix2 k i) := by
  have e : (V m c main_v1 : S1024x4096.Idx → EReal)
      = (truncf (F := Ideal) .bf16 (m ((c : Thread nD τ).loc main_arg1) : FVec Ideal S1024x4096 .f32) bitsLt_bf16_f32 : FVec Ideal S1024x4096 .bf16) := by
    show StableHlo.after hostOps0 (fun b => m (c, b)) (Proc.devRef .tc main_v1) = _
    after_results
  rw [e]; rfl
theorem V_w2 (k : Fin 4096) (i : Fin 4096) : V m c main_v2 (ix2 k i) = m ((c : Thread nD τ).loc main_arg3) (ix2 k i) := by
  have e : (V m c main_v2 : S4096x4096.Idx → EReal)
      = (truncf (F := Ideal) .bf16 (m ((c : Thread nD τ).loc main_arg3) : FVec Ideal S4096x4096 .f32) bitsLt_bf16_f32 : FVec Ideal S4096x4096 .bf16) := by
    show StableHlo.after hostOps0 (fun b => m (c, b)) (Proc.devRef .tc main_v2) = _
    after_results
  rw [e]; rfl
theorem V_w3 (k : Fin 4096) (i : Fin 1024) : V m c main_v3 (ix2 k i) = m ((c : Thread nD τ).loc main_arg5) (ix2 k i) := by
  have e : (V m c main_v3 : S4096x1024.Idx → EReal)
      = (truncf (F := Ideal) .bf16 (m ((c : Thread nD τ).loc main_arg5) : FVec Ideal S4096x1024 .f32) bitsLt_bf16_f32 : FVec Ideal S4096x1024 .bf16) := by
    show StableHlo.after hostOps0 (fun b => m (c, b)) (Proc.devRef .tc main_v3) = _
    after_results
  rw [e]; rfl

/-- A bias or norm parameter with a leading unit axis, at `(u, i)`, is the parameter at `i`. -/
theorem V_b1 (u : Fin 1) (i : Fin 4096) : V m c main_v4 (ix2 u i) = m ((c : Thread nD τ).loc main_arg2) (ix1 i) := by
  have e : (V m c main_v4 : S1x4096.Idx → EReal)
      = shapeCast S1x4096 (m ((c : Thread nD τ).loc main_arg2)) shapeCasts_S4096_S1x4096 := by
    show StableHlo.after hostOps0 (fun b => m (c, b)) (Proc.devRef .tc main_v4) = _
    after_results
    rfl
  rw [e]; exact shapeCast_a_1a_apply _ _ u i
theorem V_b2 (u : Fin 1) (i : Fin 4096) : V m c main_v5 (ix2 u i) = m ((c : Thread nD τ).loc main_arg4) (ix1 i) := by
  have e : (V m c main_v5 : S1x4096.Idx → EReal)
      = shapeCast S1x4096 (m ((c : Thread nD τ).loc main_arg4)) shapeCasts_S4096_S1x4096 := by
    show StableHlo.after hostOps0 (fun b => m (c, b)) (Proc.devRef .tc main_v5) = _
    after_results
    rfl
  rw [e]; exact shapeCast_a_1a_apply _ _ u i
theorem V_b3 (u : Fin 1) (i : Fin 1024) : V m c main_v6 (ix2 u i) = m ((c : Thread nD τ).loc main_arg6) (ix1 i) := by
  have e : (V m c main_v6 : S1x1024.Idx → EReal)
      = shapeCast S1x1024 (m ((c : Thread nD τ).loc main_arg6)) shapeCasts_S1024_S1x1024 := by
    show StableHlo.after hostOps0 (fun b => m (c, b)) (Proc.devRef .tc main_v6) = _
    after_results
    rfl
  rw [e]; exact shapeCast_a_1a_apply _ _ u i
theorem V_lw (u : Fin 1) (i : Fin 1024) : V m c main_v7 (ix2 u i) = m ((c : Thread nD τ).loc main_arg7) (ix1 i) := by
  have e : (V m c main_v7 : S1x1024.Idx → EReal)
      = shapeCast S1x1024 (m ((c : Thread nD τ).loc main_arg7)) shapeCasts_S1024_S1x1024 := by
    show StableHlo.after hostOps0 (fun b => m (c, b)) (Proc.devRef .tc main_v7) = _
    after_results
    rfl
  rw [e]; exact shapeCast_a_1a_apply _ _ u i
theorem V_lb (u : Fin 1) (i : Fin 1024) : V m c main_v8 (ix2 u i) = m ((c : Thread nD τ).loc main_arg8) (ix1 i) := by
  have e : (V m c main_v8 : S1x1024.Idx → EReal)
      = shapeCast S1x1024 (m ((c : Thread nD τ).loc main_arg8)) shapeCasts_S1024_S1x1024 := by
    show StableHlo.after hostOps0 (fun b => m (c, b)) (Proc.devRef .tc main_v8) = _
    after_results
    rfl
  rw [e]; exact shapeCast_a_1a_apply _ _ u i

end Cert.MlpNorm.K

end
-- ==== Proof.Accum.lean ====
/-
  The two carried buffers, point by point, over the extended reals: by induction on the grid point,

  * the first carried buffer holds, at `(r, i)`, the first layer's activation of row `256·(t/8) + r` of the
    flattened input, at column `i` — computed at the row tile's first step and carried unchanged after it;
  * the accumulator holds, at `(r, q)`, the running sum over the first `t % 8 + 1` blocks of 512 of the terms
    `(second layer's activation at p) · w3 p q` of that row — restarted from zero at the first step, one block
    added per step.

  At the tile's last step the running sum is the whole sum over 4096, so the stored output block is the
  specification's row function of the row.
-/
import proofs.«158970_j70214125355101_1_alg».proof.Proof.Cases
import proofs.«158970_j70214125355101_1_alg».proof.Proof.Payloads
import proofs.«158970_j70214125355101_1_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.MlpNorm.K

open Cert.KernelIdeal Cert.KernelIdeal.Gen

variable (m : (ℓ : Loc nD τ sig) → Buf (Elt Ideal) ℓ) (c : Dev nD)

/-! ## The arrays the region finds, as functions of coordinates -/

/-- Row `R` of the flattened input. -/
def xrow (R : Fin 16384) : Fin 1024 → EReal := fun k => V m c main_v0 (ix2 R k)
def w1 : Fin 1024 → Fin 4096 → EReal := fun k i => V m c main_v1 (ix2 k i)
def b1 : Fin 4096 → EReal := fun i => V m c main_v4 (ix2 (0 : Fin 1) i)
def w2 : Fin 4096 → Fin 4096 → EReal := fun i j => V m c main_v2 (ix2 i j)
def b2 : Fin 4096 → EReal := fun j => V m c main_v5 (ix2 (0 : Fin 1) j)
def w3 : Fin 4096 → Fin 1024 → EReal := fun j q => V m c main_v3 (ix2 j q)
def b3 : Fin 1024 → EReal := fun q => V m c main_v6 (ix2 (0 : Fin 1) q)
def lw : Fin 1024 → EReal := fun q => V m c main_v7 (ix2 (0 : Fin 1) q)
def lb : Fin 1024 → EReal := fun q => V m c main_v8 (ix2 (0 : Fin 1) q)

/-- The first layer's activation of row `R`. -/
def a1row (R : Fin 16384) : Fin 4096 → EReal := act1 (xrow m c R) (w1 m c) (b1 m c)

/-- The third layer's terms of row `R` at column `q`: the second layer's activation at `p` times `w3 p q`. -/
def term (R : Fin 16384) (q : Fin 1024) : Fin 4096 → EReal :=
  fun p => act2 (a1row m c R) (w2 m c) (b2 m c) p * w3 m c p q

/-- The row of the flattened input that local row `r` of point `n`'s block is. -/
def rowIx (n : ℕ) (h : n < cfg0.N) (r : Fin 256) : Fin 16384 :=
  ⟨256 * (n / 8) + r.val, by have hN : cfg0.N = 512 := N_0; have := r.isLt; omega⟩

/-! ## One step of the accumulation -/

/-- A running sum plus one block's sum is the next running sum. -/
theorem step_sum (g : Fin 4096 → EReal) (j : ℕ) (hj : j < 8) (acc : EReal) (hacc : acc = partialSum g j)
    (s : Fin 512 → EReal) (hs : ∀ p : Fin 512, s p = g ⟨512 * j + p.val, by have := p.isLt; omega⟩) :
    acc + ∑ p : Fin 512, s p = partialSum g (j + 1) := by
  rw [partialSum_succ g j hj, hacc]
  exact congrArg _ (Finset.sum_congr rfl fun p _ => hs p)

/-- At point `t`, from a first-layer row `A` and an accumulator `Z` that hold row `R`'s activation and its running sum
    over the first `t % 8` blocks, the stepped accumulator holds the running sum over `t % 8 + 1` blocks. -/
theorem acc_step (t : Fin cfg0.N) (A : Vec Ideal S256x4096 .bf16) (Z : Vec Ideal S256x1024 .f32) (R : Fin 16384)
    (r : Fin 256) (q : Fin 1024) (hf : ∀ i : Fin 4096, A (ix2 r i) = a1row m c R i)
    (hz : Z (ix2 r q) = partialSum (term m c R q) (t.val % 8)) :
    k0_pay4 (F := Ideal) A (iblk m c 3 t) (iblk m c 4 t) Z (iblk m c 5 t) (ix2 r q)
      = partialSum (term m c R q) (t.val % 8 + 1) := by
  refine (step_apply A (iblk m c 3 t) (iblk m c 4 t) Z (iblk m c 5 t) r q).trans ?_
  refine step_sum (term m c R q) (t.val % 8) (Nat.mod_lt _ (by norm_num)) _ hz _ fun p => ?_
  have hP : ((⟨512 * (t.val % 8) + p.val, by have := p.isLt; have := Nat.mod_lt t.val (by norm_num : 0 < 8); omega⟩ : Fin 4096) : ℕ)
      = 512 * (t.val % 8) + p.val := rfl
  have hsum : (∑ i : Fin 4096, A (ix2 r i) * (iblk m c 3 t : Vec Ideal S4096x512 .bf16) (ix2 i p))
      = ∑ i : Fin 4096, a1row m c R i * w2 m c i ⟨512 * (t.val % 8) + p.val, by have := p.isLt; have := Nat.mod_lt t.val (by norm_num : 0 < 8); omega⟩ :=
    Finset.sum_congr rfl fun i _ => by rw [hf i, blk_w2 m c t i p _ hP]; rfl
  rw [hsum, blk_b2 m c t 0 p _ hP, blk_w3 m c t p q _ hP]
  rfl

/-! ## The induction over the grid points -/

/-- What the two carried buffers hold after point `n`. -/
theorem carried : ∀ (n : ℕ) (h : n < cfg0.N),
    (∀ (r : Fin 256) (i : Fin 4096), actAt m c n h (ix2 r i) = a1row m c (rowIx n h r) i)
    ∧ (∀ (r : Fin 256) (q : Fin 1024), accAt m c n h (ix2 r q) = partialSum (term m c (rowIx n h r) q) (n % 8 + 1))
  | n, h => by
    have hN : cfg0.N = 512 := N_0
    by_cases h0 : n % 8 = 0
    · -- the first step of a row tile
      obtain ⟨hA, hAcc⟩ := outs_A m c ⟨n, h⟩ h0 (by show ¬n % 8 = 7; omega)
      have hA' : actAt m c n h = k0_pay2 (iblk m c 0 ⟨n, h⟩) (iblk m c 1 ⟨n, h⟩) (iblk m c 2 ⟨n, h⟩) := hA
      have hAcc' : accAt m c n h = k0_pay4 (k0_pay2 (iblk m c 0 ⟨n, h⟩) (iblk m c 1 ⟨n, h⟩) (iblk m c 2 ⟨n, h⟩))
          (iblk m c 3 ⟨n, h⟩) (iblk m c 4 ⟨n, h⟩) (k0_pay3 (F := Ideal)) (iblk m c 5 ⟨n, h⟩) := hAcc
      have first : ∀ (r : Fin 256) (i : Fin 4096),
          k0_pay2 (F := Ideal) (iblk m c 0 ⟨n, h⟩) (iblk m c 1 ⟨n, h⟩) (iblk m c 2 ⟨n, h⟩) (ix2 r i) = a1row m c (rowIx n h r) i := by
        intro r i
        refine (first_apply (iblk m c 0 ⟨n, h⟩) (iblk m c 1 ⟨n, h⟩) (iblk m c 2 ⟨n, h⟩) r i).trans ?_
        have e0 : (fun k : Fin 1024 => (iblk m c 0 ⟨n, h⟩ : Vec Ideal S256x1024 .f32) (ix2 r k)) = xrow m c (rowIx n h r) :=
          funext fun k => blk_x m c ⟨n, h⟩ r k (rowIx n h r) rfl
        have e1 : (fun (k : Fin 1024) (i : Fin 4096) => (iblk m c 1 ⟨n, h⟩ : Vec Ideal S1024x4096 .bf16) (ix2 k i)) = w1 m c :=
          funext fun k => funext fun i => blk_w1 m c ⟨n, h⟩ k i
        have e2 : (fun i : Fin 4096 => (iblk m c 2 ⟨n, h⟩ : Vec Ideal S1x4096 .f32) (ix2 (0 : Fin 1) i)) = b1 m c :=
          funext fun i => blk_b1 m c ⟨n, h⟩ 0 i
        rw [e0, e1, e2]
        rfl
      refine ⟨fun r i => by rw [hA']; exact first r i, fun r q => ?_⟩
      rw [hAcc']
      have hstep := acc_step m c ⟨n, h⟩ (k0_pay2 (iblk m c 0 ⟨n, h⟩) (iblk m c 1 ⟨n, h⟩) (iblk m c 2 ⟨n, h⟩)) (k0_pay3 (F := Ideal))
        (rowIx n h r) r q (first r) (by
          show k0_pay3 (F := Ideal) (ix2 r q) = partialSum (term m c (rowIx n h r) q) (n % 8)
          rw [zero_apply, h0, partialSum_zero])
      exact hstep
    · -- a later step: over what the step before left
      obtain ⟨k, rfl⟩ : ∃ k, n = k + 1 := ⟨n - 1, by omega⟩
      have IH := carried k (Nat.lt_of_succ_lt h)
      have hrow : ∀ r : Fin 256, rowIx k (Nat.lt_of_succ_lt h) r = rowIx (k + 1) h r := fun r => Fin.ext (by
        show 256 * (k / 8) + r.val = 256 * ((k + 1) / 8) + r.val
        omega)
      have hpA : ∀ (r : Fin 256) (i : Fin 4096), prevAct m c ⟨k + 1, h⟩ (ix2 r i) = a1row m c (rowIx (k + 1) h r) i :=
        fun r i => (IH.1 r i).trans (by rw [hrow r])
      have hpZ : ∀ (r : Fin 256) (q : Fin 1024),
          prevAcc m c ⟨k + 1, h⟩ (ix2 r q) = partialSum (term m c (rowIx (k + 1) h r) q) ((k + 1) % 8) :=
        fun r q => (IH.2 r q).trans (by rw [hrow r, show k % 8 + 1 = (k + 1) % 8 by omega])
      have hstep : ∀ (r : Fin 256) (q : Fin 1024),
          k0_pay4 (F := Ideal) (prevAct m c ⟨k + 1, h⟩) (iblk m c 3 ⟨k + 1, h⟩) (iblk m c 4 ⟨k + 1, h⟩) (prevAcc m c ⟨k + 1, h⟩)
              (iblk m c 5 ⟨k + 1, h⟩) (ix2 r q)
            = partialSum (term m c (rowIx (k + 1) h r) q) ((k + 1) % 8 + 1) :=
        fun r q => acc_step m c ⟨k + 1, h⟩ (prevAct m c ⟨k + 1, h⟩) (prevAcc m c ⟨k + 1, h⟩) (rowIx (k + 1) h r) r q (hpA r) (hpZ r q)
      by_cases h1 : (k + 1) % 8 = 7
      · obtain ⟨-, hA, hAcc⟩ := outs_C m c ⟨k + 1, h⟩ h0 h1
        have hA' : actAt m c (k + 1) h = prevAct m c ⟨k + 1, h⟩ := hA
        have hAcc' : accAt m c (k + 1) h = k0_pay4 (prevAct m c ⟨k + 1, h⟩) (iblk m c 3 ⟨k + 1, h⟩) (iblk m c 4 ⟨k + 1, h⟩)
            (prevAcc m c ⟨k + 1, h⟩) (iblk m c 5 ⟨k + 1, h⟩) := hAcc
        exact ⟨fun r i => by rw [hA']; exact hpA r i, fun r q => by rw [hAcc']; exact hstep r q⟩
      · obtain ⟨hA, hAcc⟩ := outs_B m c ⟨k + 1, h⟩ h0 h1
        have hA' : actAt m c (k + 1) h = prevAct m c ⟨k + 1, h⟩ := hA
        have hAcc' : accAt m c (k + 1) h = k0_pay4 (prevAct m c ⟨k + 1, h⟩) (iblk m c 3 ⟨k + 1, h⟩) (iblk m c 4 ⟨k + 1, h⟩)
            (prevAcc m c ⟨k + 1, h⟩) (iblk m c 5 ⟨k + 1, h⟩) := hAcc
        exact ⟨fun r i => by rw [hA']; exact hpA r i, fun r q => by rw [hAcc']; exact hstep r q⟩

/-! ## The output block at a row tile's last step -/

/-- At a last step the stored output block is, at `(r, q)`, the specification's row function of row
    `256·(t/8) + r`, multiplying by the reciprocal square root. -/
theorem out_last (t : Fin cfg0.N) (h1 : t.val % 8 = 7) (r : Fin 256) (q : Fin 1024) :
    ((outsAt0 m c t.val t.isLt).1 : Vec Ideal S256x1024 .f32) (ix2 r q)
      = rowMul (xrow m c (rowIx t.val t.isLt r)) (w1 m c) (b1 m c) (w2 m c) (b2 m c) (w3 m c) (b3 m c) (lw m c) (lb m c) q := by
  have hN : cfg0.N = 512 := N_0
  obtain ⟨hO, -, hAcc⟩ := outs_C m c t (by omega) h1
  rw [hO, ← hAcc]
  refine (norm_apply (accAt m c t.val t.isLt) (iblk m c 6 t) (iblk m c 0 t) (iblk m c 7 t) (iblk m c 8 t) r q).trans ?_
  have key : ∀ (o o' l l' b b' : Fin 1024 → EReal), o = o' → l = l' → b = b' → normMul o l b q = normMul o' l' b' q := by
    intro o o' l l' b b' e1 e2 e3; rw [e1, e2, e3]
  refine key _ _ _ _ _ _ (funext fun k => ?_) (funext fun k => blk_lw m c t 0 k) (funext fun k => blk_lb m c t 0 k)
  show _ = resid (xrow m c (rowIx t.val t.isLt r)) (act2 (a1row m c (rowIx t.val t.isLt r)) (w2 m c) (b2 m c)) (w3 m c) (b3 m c) k
  rw [blk_x m c t r k (rowIx t.val t.isLt r) rfl, blk_b3 m c t 0 k, (carried m c t.val t.isLt).2 r k, h1, partialSum_eight]
  rfl

end Cert.MlpNorm.K

end
-- ==== Proof.Final.lean ====
/-
  The kernel's result, over the extended reals.

  The output's block is written back at the last step of each row tile and nowhere else; the 64 written blocks
  tile the flattened result's 16384 rows; so the flattened result holds, at `(R, q)`, the specification's row function
  of row `R` of the flattened input.  After the region the host gives the result its three axes back: entry `(a, b, q)`
  is the flattened entry `(4096·a + b, q)`, and row `4096·a + b` of the flattened input is the input's row `(a, b)`.
-/
import proofs.«158970_j70214125355101_1_alg».proof.Proof.Accum

set_option maxRecDepth 16384

noncomputable section

open Idealize.ShloMosaic Idealize.ShloMosaic.TcCoe Idealize.SL.Sem Idealize.ShloMosaic.ValueIdx
open Idealize.ShloMosaic.Pipeline (Dat)

namespace Cert.MlpNorm.K

open Cert.KernelIdeal Cert.KernelIdeal.Gen

variable (m : (ℓ : Loc nD τ sig) → Buf (Elt Ideal) ℓ) (ρ : Dev nD → PrngReg) (c : Dev nD)

/-! ## The flattened result -/

/-- The row function of flattened row `R`, at column `q`. -/
def flatAt (R : Fin 16384) (q : Fin 1024) : EReal :=
  rowMul (xrow m c R) (w1 m c) (b1 m c) (w2 m c) (b2 m c) (w3 m c) (b3 m c) (lw m c) (lb m c) q

/-- The flattened result as one array. -/
def flat : S16384x1024.Idx → EReal := fun j => flatAt m c ⟨(j 0).val, (j 0).isLt⟩ ⟨(j 1).val, (j 1).isLt⟩

theorem flat_at (j : S16384x1024.Idx) (R : Fin 16384) (q : Fin 1024) (h0 : (j 0).val = R.val) (h1 : (j 1).val = q.val) :
    flat m c j = flatAt m c R q := by
  unfold flat
  rw [show (⟨(j 0).val, (j 0).isLt⟩ : Fin 16384) = R from Fin.ext h0, show (⟨(j 1).val, (j 1).isLt⟩ : Fin 1024) = q from Fin.ext h1]

/-- What a last step writes back is its block of the flattened result. -/
theorem flushed_eq (t : Fin cfg0.N) (hf : (cfg0.win 9).flush t = true) :
    (dats m 0 c).flushed 9 t = ((cfg0.win 9).blk t).view.read (Elt Ideal) (flat m c) := by
  have h7 : t.val % 8 = 7 := (flush0_9 t).mp hf
  show (cfg0.win 9).cut (grid0.coords t) ((dats m 0 c).after 9 t) = _
  rw [after0_9]
  funext y
  obtain ⟨r, q, rfl⟩ : ∃ (r : Fin 256) (q : Fin 1024), y = ix2 r q := ⟨y 0, y 1, eq_ix2 y⟩
  rw [View.read_apply]
  show ((outsAt0 m c t.val t.isLt).1 : Vec Ideal S256x1024 .f32) (ix2 r q)
    = flat m c (((cfg0.win 9).blk t).view.emb (ix2 r q))
  rw [out_last m c t h7 r q]
  exact (flat_at m c _ (rowIx t.val t.isLt r) q
    (by show win0_9.index t 0 * 256 + 1 * r.val = 256 * (t.val / 8) + r.val; rw [(idx9 t).1]; omega)
    (by show win0_9.index t 1 * 1024 + 1 * q.val = q.val; rw [(idx9 t).2]; omega)).symm

/-- An index of the flattened result is in point `t`'s block iff each coordinate is in the block's range. -/
theorem mem_blk (t : Fin cfg0.N) (i : S16384x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v9).slice (win0_9.rect t)).set ↔ _
  rw [View.set_slice_whole, Rect.mem_set_unit]
  exact Iff.rfl

/-- Every row of the flattened result is in the block of its row tile's last step. -/
theorem cover (i : S16384x1024.Idx) :
    ∃ t : Fin cfg0.N, (cfg0.win 9).flush t = true ∧ i ∈ ((cfg0.win 9).blk t).view.set := by
  have hN : cfg0.N = 512 := N_0
  have hi0 : (i 0).val < 16384 := (i 0).isLt
  have hi1 : (i 1).val < 1024 := (i 1).isLt
  have hT : 8 * ((i 0).val / 256) + 7 < cfg0.N := by omega
  refine ⟨⟨8 * ((i 0).val / 256) + 7, hT⟩, (flush0_9 _).mpr (by show (8 * ((i 0).val / 256) + 7) % 8 = 7; omega), ?_⟩
  rw [mem_blk]
  intro a
  have e0 := (idx9 ⟨8 * ((i 0).val / 256) + 7, hT⟩).1
  have e1 := (idx9 ⟨8 * ((i 0).val / 256) + 7, hT⟩).2
  have e0' : win0_9.index ⟨8 * ((i 0).val / 256) + 7, hT⟩ (0 : Fin 2) = (8 * ((i 0).val / 256) + 7) / 8 := e0
  match a with
  | ⟨0, _⟩ =>
    show win0_9.index ⟨8 * ((i 0).val / 256) + 7, hT⟩ (0 : Fin 2) * 256 ≤ (i 0).val ∧ (i 0).val < win0_9.index ⟨8 * ((i 0).val / 256) + 7, hT⟩ (0 : Fin 2) * 256 + 256
    rw [e0']; omega
  | ⟨1, _⟩ =>
    show win0_9.index ⟨8 * ((i 0).val / 256) + 7, hT⟩ (1 : Fin 2) * 1024 ≤ (i 1).val ∧ (i 1).val < win0_9.index ⟨8 * ((i 0).val / 256) + 7, hT⟩ (1 : Fin 2) * 1024 + 1024
    rw [e1]; omega

/-- So the flattened result array ends holding `flat`. -/
theorem final : (dats m 0 c).arrAt 9 cfg0.N = flat m c :=
  (dats m 0 c).arrAt_eq_of_cover 9 (flat m c) (flushed_eq m c) (cover)

/-! ## The result with its three axes -/

/-- The kernel's result at `(a, b, q)`: the row function of the input's row `(a, b)`, over the argument arrays. -/
def result : S4x4096x1024.Idx → EReal := fun i =>
  rowMul (fun k => m ((c : Thread nD τ).loc main_arg0) (ix3 ⟨(i 0).val, (i 0).isLt⟩ ⟨(i 1).val, (i 1).isLt⟩ k))
    (fun k j => m ((c : Thread nD τ).loc main_arg1) (ix2 k j)) (fun j => m ((c : Thread nD τ).loc main_arg2) (ix1 j))
    (fun k j => m ((c : Thread nD τ).loc main_arg3) (ix2 k j)) (fun j => m ((c : Thread nD τ).loc main_arg4) (ix1 j))
    (fun k j => m ((c : Thread nD τ).loc main_arg5) (ix2 k j)) (fun j => m ((c : Thread nD τ).loc main_arg6) (ix1 j))
    (fun j => m ((c : Thread nD τ).loc main_arg7) (ix1 j)) (fun j => m ((c : Thread nD τ).loc main_arg8) (ix1 j))
    ⟨(i 2).val, (i 2).isLt⟩

/-- The flattened result, given its three axes back, is `result`. -/
theorem unflatten : shapeCast S4x4096x1024 (flat m c) shapeCasts_S16384x1024_S4x4096x1024 = result m c := by
  funext i
  obtain ⟨a, b, q, rfl⟩ : ∃ (a : Fin 4) (b : Fin 4096) (q : Fin 1024), i = ix3 a b q := ⟨i 0, i 1, i 2, eq_ix3 i⟩
  have hRlt : 4096 * a.val + b.val < 16384 := by have := a.isLt; have := b.isLt; omega
  rw [shapeCast_apply (flat m c) shapeCasts_S16384x1024_S4x4096x1024 (ix3 a b q) (ix2 ⟨4096 * a.val + b.val, hRlt⟩ q) (by
    rw [Shape.rowMajor_val_three, Shape.rowMajor_val_two]
    show (4096 * a.val + b.val) * 1024 + q.val = (a.val * 4096 + b.val) * 1024 + q.val
    ring)]
  rw [flat_at m c _ ⟨4096 * a.val + b.val, hRlt⟩ q rfl rfl]
  unfold flatAt result
  have ex : xrow m c ⟨4096 * a.val + b.val, hRlt⟩ = fun k => m ((c : Thread nD τ).loc main_arg0) (ix3 a b k) :=
    funext fun k => V_x m c a b k _ rfl
  have e1 : w1 m c = fun k j => m ((c : Thread nD τ).loc main_arg1) (ix2 k j) := funext fun k => funext fun j => V_w1 m c k j
  have e2 : b1 m c = fun j => m ((c : Thread nD τ).loc main_arg2) (ix1 j) := funext fun j => V_b1 m c 0 j
  have e3 : w2 m c = fun k j => m ((c : Thread nD τ).loc main_arg3) (ix2 k j) := funext fun k => funext fun j => V_w2 m c k j
  have e4 : b2 m c = fun j => m ((c : Thread nD τ).loc main_arg4) (ix1 j) := funext fun j => V_b2 m c 0 j
  have e5 : w3 m c = fun k j => m ((c : Thread nD τ).loc main_arg5) (ix2 k j) := funext fun k => funext fun j => V_w3 m c k j
  have e6 : b3 m c = fun j => m ((c : Thread nD τ).loc main_arg6) (ix1 j) := funext fun j => V_b3 m c 0 j
  have e7 : lw m c = fun j => m ((c : Thread nD τ).loc main_arg7) (ix1 j) := funext fun j => V_lw m c 0 j
  have e8 : lb m c = fun j => m ((c : Thread nD τ).loc main_arg8) (ix1 j) := funext fun j => V_lb m c 0 j
  rw [ex, e1, e2, e3, e4, e5, e6, e7, e8]

/-- What the host's last line leaves in the result buffer. -/
theorem tail_eq : Pipeline.afterTail₀ cfgs (dats m) 0 (V0 m) [hostOps1] c main_v10 = result m c := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.tc.devRef main_v9)
      = flat m c :=
    (Pipeline.withArrays_arr spec0 launch0.win.arr_inj c _ _ 9).trans (final m c)
  funext i
  show shapeCast S4x4096x1024 (Pipeline.withArrays (cfgs 0).spec c (V0 m c) (fun w => (dats m 0 c).arrAt w (cfgs 0).N)
      (Proc.tc.devRef main_v9)) shapeCasts_S16384x1024_S4x4096x1024 i = result m c i
  rw [hw]
  exact congrFun (unflatten m c) i

/-- The run, read: the result buffer at `result`, the arguments unchanged. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.MlpNorm.K

end
-- ==== Proof.lean ====
/-
  A fused three-layer perceptron with a residual and a layer norm, against its plain array reference, over the
  extended reals.

  Both programs map every row `x` of a `[4, 4096, 1024]` input to
  `LN(x + (act(act(x·W1 + b1)·W2 + b2)·W3 + b3))`, with `act u = u · (1/2 + (1/4)·t + c·t³)`, `t = a·u`, and `LN` the
  layer norm over the row's 1024 entries with a weight and a bias.

  The kernel flattens the input to 16384 rows and walks a grid of 64 row tiles of 256 rows times 8 steps.  At a
  tile's first step it computes the first layer's activation of its rows and keeps it; at every step it takes
  512 columns of the second layer, applies the activation, multiplies by the matching 512 rows of the third layer
  and adds the product into an accumulator it carries from step to step; at the last step it adds the input rows
  and the bias, normalizes each row — multiplying by the reciprocal square root of the variance plus a positive
  constant — and writes the tile out.  The reference computes the three products whole and divides by the square
  root instead.

  Two laws make them one function: a sum over 4096 terms is the sum of its eight consecutive blocks of 512 (the
  extended reals are a commutative monoid under addition, so no finiteness is needed), and for a positive
  radicand — a mean of squares plus a positive constant is positive — a product with the reciprocal square root is
  the quotient by the square root, also when the radicand is infinite.  A change of float format is the identity
  over the extended reals, a product into a zero accumulator is the plain sum, and every float literal is the same
  word in both programs.

  The modules: Laws (the two laws), Spec (the row function, in both spellings), RefRow (the reference is the row
  function, dividing), Pieces and Cases (what each control case of the body leaves in the buffers it carries),
  Payloads (the stored values read at an index), Blocks (each operand block as entries of the arguments), Accum (the
  carried buffers by induction over the grid), Final (the result array), and the claims below.
-/
import proofs.«158970_j70214125355101_1_alg».proof.Defs
import proofs.«158970_j70214125355101_1_alg».proof.Proof.Gen.Kernel
import proofs.«158970_j70214125355101_1_alg».proof.Proof.Gen.Kernel.Skeleton
import proofs.«158970_j70214125355101_1_alg».proof.Proof.Gen.Kernel.Launch
import proofs.«158970_j70214125355101_1_alg».proof.Proof.Gen.Kernel.Points
import proofs.«158970_j70214125355101_1_alg».proof.Proof.Gen.Kernel.Frame
import proofs.«158970_j70214125355101_1_alg».proof.Proof.Gen.KernelIdeal
import proofs.«158970_j70214125355101_1_alg».proof.Proof.Gen.KernelIdeal.Skeleton
import proofs.«158970_j70214125355101_1_alg».proof.Proof.Gen.KernelIdeal.Launch
import proofs.«158970_j70214125355101_1_alg».proof.Proof.Gen.KernelIdeal.Points
import proofs.«158970_j70214125355101_1_alg».proof.Proof.Gen.KernelIdeal.Frame
import proofs.«158970_j70214125355101_1_alg».proof.Proof.Gen.ReferenceIdeal
import proofs.«158970_j70214125355101_1_alg».proof.Proof.Gen.ReferenceIdeal.Run
import proofs.«158970_j70214125355101_1_alg».proof.Proof.Gen.ReferenceIdeal.Read
import proofs.«158970_j70214125355101_1_alg».proof.Proof.Gen.Pre_finite_inputs
import proofs.«158970_j70214125355101_1_alg».proof.Proof.Laws
import proofs.«158970_j70214125355101_1_alg».proof.Proof.Spec
import proofs.«158970_j70214125355101_1_alg».proof.Proof.RefRow
import proofs.«158970_j70214125355101_1_alg».proof.Proof.Final
import Idealize.ShloMosaic.Adequacy
import Idealize.ShloMosaic.Init

noncomputable section

namespace Cert.Proof

open Idealize.ShloMosaic Idealize.SL.Sem Idealize.ShloMosaic.ValueIdx

/-- The kernel as printed runs, and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories agreeing on the arguments both programs end with the same result: at `(a, b, q)` the row function of
    row `(a, b)`, which the kernel computes multiplying by the reciprocal square root and the reference dividing by
    the square root. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.MlpNorm.K.result m c, Cert.MlpNorm.K.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  funext i
  obtain ⟨a, b, q, rfl⟩ : ∃ (a : Fin 4) (b : Fin 4096) (q : Fin 1024), i = ix3 a b q := ⟨i 0, i 1, i 2, eq_ix3 i⟩
  rw [Cert.MlpNorm.Ref.ref_apply]
  exact (Cert.MlpNorm.rowMul_eq_rowDiv _ _ _ _ _ _ _ _ _ q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
